-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S2x2048x4096 .f32) (main_arg1 : FVec F S11008x4096 .f32) (main_arg2 : FVec F S11008x4096 .f32) (main_arg3 : FVec F S4096x11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S4096x4096 : Shape := ⟨2, ![4096, 4096]⟩
abbrev S512x4096 : Shape := ⟨2, ![512, 4096]⟩
abbrev S256x4096 : Shape := ⟨2, ![256, 4096]⟩
abbrev S4096x256 : Shape := ⟨2, ![4096, 256]⟩
abbrev S512x256 : Shape := ⟨2, ![512, 256]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4096x4096, .f32⟩
  | .hbm, ⟨5, _⟩ => ⟨S4096x4096, .bf16⟩
  | .hbm, ⟨6, _⟩ => ⟨S11008x4096, .bf16⟩
  | .hbm, ⟨7, _⟩ => ⟨S11008x4096, .bf16⟩
  | .hbm, ⟨8, _⟩ => ⟨S4096x11008, .bf16⟩
  | .hbm, ⟨9, _⟩ => ⟨S4096x4096, .f32⟩
  | .hbm, ⟨10, _⟩ => ⟨S2x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S512x4096, .f32⟩
  | .local _ .vmem, ⟨9, _⟩ => ⟨S512x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 43], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg1 : BitVec 32 := BitVec.ofNat 32 (i 1).val
  let c0_i32_10 : BitVec 32 := 0#32
  let v18 : BitVec 1 := Scalar.cmpi .sgt arg1 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x2048x4096_S4096x4096 : S2x2048x4096.ShapeCasts S4096x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S4096x4096_S2x2048x4096 : S4096x4096.ShapeCasts S2x2048x4096
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x11008.size a
  hwx0_3 : ∀ i : grid0.Coords, EltTy.bits .bf16 = 32 ∨ (Rect.block (s := S4096x11008) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S2x2048x11008 : Shape := ⟨3, ![2, 2048, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S2x2048x11008, .f32⟩
  | .hbm, ⟨5, _⟩ => ⟨S2x2048x11008, .f32⟩
  | .hbm, ⟨6, _⟩ => ⟨S2x2048x11008, .f32⟩
  | .hbm, ⟨7, _⟩ => ⟨S2x2048x11008, .f32⟩
  | .hbm, ⟨8, _⟩ => ⟨S_, .f32⟩
  | .hbm, ⟨9, _⟩ => ⟨S2x2048x11008, .f32⟩
  | .hbm, ⟨10, _⟩ => ⟨S2x2048x11008, .f32⟩
  | .hbm, ⟨11, _⟩ => ⟨S_, .f32⟩
  | .hbm, ⟨12, _⟩ => ⟨S2x2048x11008, .f32⟩
  | .hbm, ⟨13, _⟩ => ⟨S2x2048x11008, .f32⟩
  | .hbm, ⟨14, _⟩ => ⟨S2x2048x11008, .f32⟩
  | .hbm, ⟨15, _⟩ => ⟨S2x2048x11008, .f32⟩
  | .hbm, ⟨16, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S2x2048x11008 : S_.BroadcastsInDim S2x2048x11008 (![] : Fin 0 → Fin S2x2048x11008.rank)
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.BodyRunsBits.lean ====
/-
  The kernel body run once, in each of the two situations the grid puts it in.

  The grid is 8 row blocks × 43 column blocks of the hidden axis, the column block innermost. At a point the body
  loads the row block of the activations and the column block's slices of the three weight matrices, forms the
  block's contribution `d` to the down projection (two contractions over the model axis, the gate, one contraction
  over the block's 256 hidden columns), and then
    · at the FIRST column block (`i₁ = 0`) overwrites the output block with `d`;
    · at every LATER one (`i₁ > 0`) reads the output block back and stores `block + d`.
  Exactly one of the two branches is taken at each point. Each run below is stated on arbitrary whole staging
  buffers: the four inputs are held at given contents and handed back unchanged, the output buffer is handed back
  holding the pieces the run's stores left in it (found while the body is stepped through, last store first).
-/
import proofs.«107914_j78786880078279_2_alg».proof.Proof.Gen.Kernel.Frame
import proofs.«107914_j78786880078279_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the FIRST column block: the first branch taken, the second not. The output buffer may hold
    anything on entry (the body loads it and discards what it loaded); it ends with the stored pieces `L`. -/
noncomputable def runFirst (c : Dev nD) (i : grid0.Coords)
    (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : k0_cond1 i = 1#1) (hc2 : ¬ k0_cond2 i = 1#1)
    (x0 : Vec F S512x4096 .bf16) (x1 x2 : Vec F S256x4096 .bf16) (x3 : Vec F S4096x256 .bf16) :
    { L : List (View.Piece (Elt F) S512x4096 .f32) //
      ∀ (E : Set ℕ) (K : PUnit → sProp 𝕄),
        iprop(owns (c : Thread nD τ) a0 fullShare x0 ∗ owns (c : Thread nD τ) a1 fullShare x1
            ∗ owns (c : Thread nD τ) a2 fullShare x2 ∗ owns (c : Thread nD τ) a3 fullShare x3
            ∗ (∃ d, owns (c : Thread nD τ) a4 fullShare d)
            ∗ (iprop(owns (c : Thread nD τ) a0 fullShare x0 ∗ owns (c : Thread nD τ) a1 fullShare x1
                ∗ owns (c : Thread nD τ) a2 fullShare x2 ∗ owns (c : Thread nD τ) a3 fullShare x3
                ∗ (∃ f, a4.view.loc (c : Thread nD τ) ↦[a4.view.set]{fullShare} a4.view.writes (Elt F) f L)) -∗ K ⟨⟩))
          ⊢ wp frame (wpE (defs₀ (F := F)) Variants.none c none) E (cc0__swiglu_kernel i a0 h0 a1 h1 a2 h2 a3 h3 a4 h4) K } := by
  refine ⟨?_, fun E K => ?run⟩
  case run =>
    simp only [cc0__swiglu_kernel_eq_skeleton]; unfold cc0__swiglu_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h0.eq_unread hf0; obtain rfl := h1.eq_unread hf1
    obtain rfl := h2.eq_unread hf2; obtain rfl := h3.eq_unread hf3
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

/-- The body at a point of a LATER column block: the first branch not taken, the second taken. The output buffer
    holds the running contents `xo` on entry; it ends with the stored pieces `L`. -/
noncomputable def runLater (c : Dev nD) (i : grid0.Coords)
    (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : ¬ k0_cond1 i = 1#1) (hc2 : k0_cond2 i = 1#1)
    (x0 : Vec F S512x4096 .bf16) (x1 x2 : Vec F S256x4096 .bf16) (x3 : Vec F S4096x256 .bf16) (xo : Vec F S512x4096 .f32) :
    { L : List (View.Piece (Elt F) S512x4096 .f32) //
      ∀ (E : Set ℕ) (K : PUnit → sProp 𝕄),
        iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare xo
            ∗ (iprop(owns (c : Thread nD τ) a0 fullShare x0 ∗ owns (c : Thread nD τ) a1 fullShare x1
                ∗ owns (c : Thread nD τ) a2 fullShare x2 ∗ owns (c : Thread nD τ) a3 fullShare x3
                ∗ (∃ f, a4.view.loc (c : Thread nD τ) ↦[a4.view.set]{fullShare} a4.view.writes (Elt F) f L)) -∗ K ⟨⟩))
          ⊢ wp frame (wpE (defs₀ (F := F)) Variants.none c none) E (cc0__swiglu_kernel i a0 h0 a1 h1 a2 h2 a3 h3 a4 h4) K } := by
  refine ⟨?_, fun E K => ?run⟩
  case run =>
    simp only [cc0__swiglu_kernel_eq_skeleton]; unfold cc0__swiglu_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h0.eq_unread hf0; obtain rfl := h1.eq_unread hf1
    obtain rfl := h2.eq_unread hf2; obtain rfl := h3.eq_unread hf3
    obtain rfl := h4.eq_unread hf4
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

end Cert.Kernel.Body

end
-- ==== Proof.BodyDataBits.lean ====
/-
  The proof data of the pipeline around the program's one region.

  What the output block's staging buffer holds after the body at each grid point is defined by recursion on the
  point (`acc`): at a point of the first column block (`t % 43 = 0`) what the first run stores, from the point's
  input blocks alone; at any later point what the second run stores, from the point's input blocks and what the
  point before left — the buffer is written back only after the last column block of a row block (`t % 43 = 42`),
  and is never idle, so between two points of one row block it is found as it was left. The inputs' buffers hold
  their blocks of the arrays as the region finds them.
-/
import proofs.«107914_j78786880078279_2_alg».proof.Proof.BodyRunsBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions over the grid, and the output window never idle -/

/-- The first branch is taken exactly at the first column block of each row block. -/
theorem cond1_iff : ∀ t : Fin cfg0.N, k0_cond1 (grid0.coords t) = 1#1 ↔ t.val % 43 = 0 :=
  (by decide +kernel : ∀ t : Fin grid0.N, k0_cond1 (grid0.coords t) = 1#1 ↔ t.val % 43 = 0)
/-- The second branch is taken exactly at the others. -/
theorem cond2_iff : ∀ t : Fin cfg0.N, k0_cond2 (grid0.coords t) = 1#1 ↔ ¬ t.val % 43 = 0 :=
  (by decide +kernel : ∀ t : Fin grid0.N, k0_cond2 (grid0.coords t) = 1#1 ↔ ¬ t.val % 43 = 0)
/-- One of the two branches stores into the output block at every coordinate: the window is nowhere idle. -/
theorem live4 : ∀ i : grid0.Coords, cfg0.idle 4 i = false :=
  (by decide +kernel : ∀ i : grid0.Coords, idle0 4 i = false)

/-! ## The staging buffers the pipeline calls the body with -/

abbrev ms0 (t : Fin cfg0.N) : Memref sig .tc .vmem S512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x4096 .f32 := win0_4.stage (cfg0.slots t 4)
abbrev hs4 (t : Fin cfg0.N) : (ms4 t).IsWhole := hstage0_4 ((cfg0.slots t 4).cast nbuf0_4)

/-- One staging buffer of the output window, through which a list of stored pieces is read back as a block's
    contents (for pieces that cover the block the choice of buffer does not matter). -/
abbrev VO : View sig .tc .vmem S512x4096 .f32 := (Memref.whole cc0_stg4_0 : Memref sig .tc .vmem S512x4096 .f32).view

/-! ## What each run leaves in the output block -/

/-- The first run's one store is of the whole block: its pieces cover it. -/
theorem coverFirst (c : Dev nD) (i : grid0.Coords) (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : k0_cond1 i = 1#1) (hc2 : ¬ k0_cond2 i = 1#1) (x0 : Vec F S512x4096 .bf16) (x1 x2 : Vec F S256x4096 .bf16) (x3 : Vec F S4096x256 .bf16) (y : S512x4096.Idx) :
    ∃ pc ∈ (runFirst c i a0 h0 a1 h1 a2 h2 a3 h3 a4 h4 hc1 hc2 x0 x1 x2 x3).1, y ∈ pc.1.set :=
  View.cover_of_tiledL (runFirst c i a0 h0 a1 h1 a2 h2 a3 h3 a4 h4 hc1 hc2 x0 x1 x2 x3).1 S512x4096.size (by sl_kernel_rfl) y

/-- What the first run leaves in the output block. -/
def outFirst (c : Dev nD) (i : grid0.Coords) (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : k0_cond1 i = 1#1) (hc2 : ¬ k0_cond2 i = 1#1) (x0 : Vec F S512x4096 .bf16) (x1 x2 : Vec F S256x4096 .bf16) (x3 : Vec F S4096x256 .bf16) : Vec F S512x4096 .f32 :=
  VO.read (Elt F) (VO.writes (Elt F) VO.junk (runFirst c i a0 h0 a1 h1 a2 h2 a3 h3 a4 h4 hc1 hc2 x0 x1 x2 x3).1)

/-- The second run's one store is of the whole block too. -/
theorem coverLater (c : Dev nD) (i : grid0.Coords) (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : ¬ k0_cond1 i = 1#1) (hc2 : k0_cond2 i = 1#1) (x0 : Vec F S512x4096 .bf16) (x1 x2 : Vec F S256x4096 .bf16) (x3 : Vec F S4096x256 .bf16) (xo : Vec F S512x4096 .f32) (y : S512x4096.Idx) :
    ∃ pc ∈ (runLater c i a0 h0 a1 h1 a2 h2 a3 h3 a4 h4 hc1 hc2 x0 x1 x2 x3 xo).1, y ∈ pc.1.set :=
  View.cover_of_tiledL (runLater c i a0 h0 a1 h1 a2 h2 a3 h3 a4 h4 hc1 hc2 x0 x1 x2 x3 xo).1 S512x4096.size (by sl_kernel_rfl) y

/-- What the second run leaves in the output block, given what it found there. -/
def outLater (c : Dev nD) (i : grid0.Coords) (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : ¬ k0_cond1 i = 1#1) (hc2 : k0_cond2 i = 1#1) (x0 : Vec F S512x4096 .bf16) (x1 x2 : Vec F S256x4096 .bf16) (x3 : Vec F S4096x256 .bf16) (xo : Vec F S512x4096 .f32) : Vec F S512x4096 .f32 :=
  VO.read (Elt F) (VO.writes (Elt F) VO.junk (runLater c i a0 h0 a1 h1 a2 h2 a3 h3 a4 h4 hc1 hc2 x0 x1 x2 x3 xo).1)

/-! ## The accumulation, point by point -/

/-- What the output block's staging buffer holds after the body at position `n` of the grid. -/
def acc (c : Dev nD) : (n : ℕ) → n < cfg0.N → Vec F S512x4096 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
      ((cond1_iff ⟨0, hn⟩).mpr (Nat.zero_mod _)) (fun h => (cond2_iff ⟨0, hn⟩).mp h (Nat.zero_mod _))
      (iblk m c 0 ⟨0, hn⟩) (iblk m c 1 ⟨0, hn⟩) (iblk m c 2 ⟨0, hn⟩) (iblk m c 3 ⟨0, hn⟩)
  | n + 1, hn =>
    if h0 : (n + 1) % 43 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        ((cond1_iff ⟨n + 1, hn⟩).mpr h0) (fun h => (cond2_iff ⟨n + 1, hn⟩).mp h h0)
        (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => h0 ((cond1_iff ⟨n + 1, hn⟩).mp h)) ((cond2_iff ⟨n + 1, hn⟩).mpr h0)
        (iblk m c 0 ⟨n + 1, hn⟩) (iblk m c 1 ⟨n + 1, hn⟩) (iblk m c 2 ⟨n + 1, hn⟩) (iblk m c 3 ⟨n + 1, hn⟩)
        (acc c n (Nat.lt_of_succ_lt hn))

/-- `acc` at a point of the first column block. -/
theorem acc_first (c : Dev nD) (t : Fin cfg0.N) (h0 : t.val % 43 = 0) :
    acc m c t.val t.isLt = outFirst c (grid0.coords t) (ms0 t) (hs0 t) (ms1 t) (hs1 t) (ms2 t) (hs2 t) (ms3 t) (hs3 t) (ms4 t) (hs4 t)
      ((cond1_iff t).mpr h0) (fun h => (cond2_iff t).mp h h0) (iblk m c 0 t) (iblk m c 1 t) (iblk m c 2 t) (iblk m c 3 t) := by
  obtain ⟨n, hn⟩ := t
  cases n with
  | zero => exact rfl
  | succ n => exact (dif_pos h0).trans rfl

/-- `acc` at a later point: over what the point before left. -/
theorem acc_later (c : Dev nD) (t : Fin cfg0.N) (h0 : ¬ t.val % 43 = 0) :
    acc m c t.val t.isLt = outLater c (grid0.coords t) (ms0 t) (hs0 t) (ms1 t) (hs1 t) (ms2 t) (hs2 t) (ms3 t) (hs3 t) (ms4 t) (hs4 t)
      (fun h => h0 ((cond1_iff t).mp h)) ((cond2_iff t).mpr h0) (iblk m c 0 t) (iblk m c 1 t) (iblk m c 2 t) (iblk m c 3 t)
      (acc m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block, the output's at `acc`;
    the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = acc m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a later point of a row block the output's staging buffer holds what the body left at the point before: the
    point is not the first, the buffer was not written back in between (that happens only after a row block's last
    column block), and the window is never idle and never clipped. -/
theorem before_4_later (c : Dev nD) (t : Fin cfg0.N) (h0 : ¬ t.val % 43 = 0) (d) :
    (dats m 0 c).before 4 t d = acc m c (t.val - 1) (Nat.lt_of_le_of_lt (Nat.sub_le _ _) t.isLt) := by
  have hN : t.val < 344 := lt_of_lt_of_eq t.isLt (show cfg0.N = 344 from N_0)
  rw [Dat.before_out_kept _ 4 rfl t (fun h => h0 (by rw [h])) (Bool.eq_false_iff.mpr fun h => by have := (flush0_4 _).mp h; dsimp only at this; omega)
    live4 (fun _ _ => rfl)]
  dsimp only [dats]

end Cert.Kernel.Body

end
-- ==== Proof.BodyBits.lean ====
/-
  The frame of the program around its one region, from the body's two runs and the pipeline's proof data.

  The body's obligation at a point is one of the two runs, chosen by `t % 43`: the inputs' buffers hold their
  blocks, and at a later point of a row block the output's buffer holds what the point before left. The library's
  launch theorem then runs @main — the host lines before the region, the region, the host line after it — and the
  argument arrays end as launched.
-/
import proofs.«107914_j78786880078279_2_alg».proof.Proof.BodyDataBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; `t % 43` says which run applies; at a later point
    the output's buffer holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 43 = 0
  · rw [acc_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((cond1_iff t).mpr h0) (fun h => (cond2_iff t).mp h h0)
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _)
  · rw [acc_later m c t h0]
    simp only [before_4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((cond1_iff t).mp h)) ((cond2_iff t).mpr h0)
      (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  -- the output window is idle nowhere, so what the body must leave in it is what the proof data name
  simp only [show ∀ i : grid0.Coords, idle0 4 i = false from live4]
  exact sound_body m c t

/-! ## The run and the frame -/

set_option backward.isDefEq.respectTransparency.types false in
/-- Every weakly fair execution of @main terminates; every final state has each array of the pipeline at what the
    library computes from the proof data, and every other unscoped buffer as the host line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyRunsIdeal.lean ====
/-
  The kernel body run once, in each of the two situations the grid puts it in.

  The grid is 8 row blocks × 43 column blocks of the hidden axis, the column block innermost. At a point the body
  loads the row block of the activations and the column block's slices of the three weight matrices, forms the
  block's contribution `d` to the down projection (two contractions over the model axis, the gate, one contraction
  over the block's 256 hidden columns), and then
    · at the FIRST column block (`i₁ = 0`) overwrites the output block with `d`;
    · at every LATER one (`i₁ > 0`) reads the output block back and stores `block + d`.
  Exactly one of the two branches is taken at each point. Each run below is stated on arbitrary whole staging
  buffers: the four inputs are held at given contents and handed back unchanged, the output buffer is handed back
  holding the pieces the run's stores left in it (found while the body is stepped through, last store first).
-/
import proofs.«107914_j78786880078279_2_alg».proof.Proof.Gen.KernelIdeal.Frame
import proofs.«107914_j78786880078279_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the FIRST column block: the first branch taken, the second not. The output buffer may hold
    anything on entry (the body loads it and discards what it loaded); it ends with the stored pieces `L`. -/
noncomputable def runFirst (c : Dev nD) (i : grid0.Coords)
    (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : k0_cond1 i = 1#1) (hc2 : ¬ k0_cond2 i = 1#1)
    (x0 : Vec F S512x4096 .bf16) (x1 x2 : Vec F S256x4096 .bf16) (x3 : Vec F S4096x256 .bf16) :
    { L : List (View.Piece (Elt F) S512x4096 .f32) //
      ∀ (E : Set ℕ) (K : PUnit → sProp 𝕄),
        iprop(owns (c : Thread nD τ) a0 fullShare x0 ∗ owns (c : Thread nD τ) a1 fullShare x1
            ∗ owns (c : Thread nD τ) a2 fullShare x2 ∗ owns (c : Thread nD τ) a3 fullShare x3
            ∗ (∃ d, owns (c : Thread nD τ) a4 fullShare d)
            ∗ (iprop(owns (c : Thread nD τ) a0 fullShare x0 ∗ owns (c : Thread nD τ) a1 fullShare x1
                ∗ owns (c : Thread nD τ) a2 fullShare x2 ∗ owns (c : Thread nD τ) a3 fullShare x3
                ∗ (∃ f, a4.view.loc (c : Thread nD τ) ↦[a4.view.set]{fullShare} a4.view.writes (Elt F) f L)) -∗ K ⟨⟩))
          ⊢ wp frame (wpE (defs₀ (F := F)) Variants.none c none) E (cc0__swiglu_kernel i a0 h0 a1 h1 a2 h2 a3 h3 a4 h4) K } := by
  refine ⟨?_, fun E K => ?run⟩
  case run =>
    simp only [cc0__swiglu_kernel_eq_skeleton]; unfold cc0__swiglu_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h0.eq_unread hf0; obtain rfl := h1.eq_unread hf1
    obtain rfl := h2.eq_unread hf2; obtain rfl := h3.eq_unread hf3
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

/-- The body at a point of a LATER column block: the first branch not taken, the second taken. The output buffer
    holds the running contents `xo` on entry; it ends with the stored pieces `L`. -/
noncomputable def runLater (c : Dev nD) (i : grid0.Coords)
    (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : ¬ k0_cond1 i = 1#1) (hc2 : k0_cond2 i = 1#1)
    (x0 : Vec F S512x4096 .bf16) (x1 x2 : Vec F S256x4096 .bf16) (x3 : Vec F S4096x256 .bf16) (xo : Vec F S512x4096 .f32) :
    { L : List (View.Piece (Elt F) S512x4096 .f32) //
      ∀ (E : Set ℕ) (K : PUnit → sProp 𝕄),
        iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare xo
            ∗ (iprop(owns (c : Thread nD τ) a0 fullShare x0 ∗ owns (c : Thread nD τ) a1 fullShare x1
                ∗ owns (c : Thread nD τ) a2 fullShare x2 ∗ owns (c : Thread nD τ) a3 fullShare x3
                ∗ (∃ f, a4.view.loc (c : Thread nD τ) ↦[a4.view.set]{fullShare} a4.view.writes (Elt F) f L)) -∗ K ⟨⟩))
          ⊢ wp frame (wpE (defs₀ (F := F)) Variants.none c none) E (cc0__swiglu_kernel i a0 h0 a1 h1 a2 h2 a3 h3 a4 h4) K } := by
  refine ⟨?_, fun E K => ?run⟩
  case run =>
    simp only [cc0__swiglu_kernel_eq_skeleton]; unfold cc0__swiglu_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h0.eq_unread hf0; obtain rfl := h1.eq_unread hf1
    obtain rfl := h2.eq_unread hf2; obtain rfl := h3.eq_unread hf3
    obtain rfl := h4.eq_unread hf4
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

end Cert.KernelIdeal.Body

end
-- ==== Proof.BodyDataIdeal.lean ====
/-
  The proof data of the pipeline around the program's one region.

  What the output block's staging buffer holds after the body at each grid point is defined by recursion on the
  point (`acc`): at a point of the first column block (`t % 43 = 0`) what the first run stores, from the point's
  input blocks alone; at any later point what the second run stores, from the point's input blocks and what the
  point before left — the buffer is written back only after the last column block of a row block (`t % 43 = 42`),
  and is never idle, so between two points of one row block it is found as it was left. The inputs' buffers hold
  their blocks of the arrays as the region finds them.
-/
import proofs.«107914_j78786880078279_2_alg».proof.Proof.BodyRunsIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions over the grid, and the output window never idle -/

/-- The first branch is taken exactly at the first column block of each row block. -/
theorem cond1_iff : ∀ t : Fin cfg0.N, k0_cond1 (grid0.coords t) = 1#1 ↔ t.val % 43 = 0 :=
  (by decide +kernel : ∀ t : Fin grid0.N, k0_cond1 (grid0.coords t) = 1#1 ↔ t.val % 43 = 0)
/-- The second branch is taken exactly at the others. -/
theorem cond2_iff : ∀ t : Fin cfg0.N, k0_cond2 (grid0.coords t) = 1#1 ↔ ¬ t.val % 43 = 0 :=
  (by decide +kernel : ∀ t : Fin grid0.N, k0_cond2 (grid0.coords t) = 1#1 ↔ ¬ t.val % 43 = 0)
/-- One of the two branches stores into the output block at every coordinate: the window is nowhere idle. -/
theorem live4 : ∀ i : grid0.Coords, cfg0.idle 4 i = false :=
  (by decide +kernel : ∀ i : grid0.Coords, idle0 4 i = false)

/-! ## The staging buffers the pipeline calls the body with -/

abbrev ms0 (t : Fin cfg0.N) : Memref sig .tc .vmem S512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x4096 .f32 := win0_4.stage (cfg0.slots t 4)
abbrev hs4 (t : Fin cfg0.N) : (ms4 t).IsWhole := hstage0_4 ((cfg0.slots t 4).cast nbuf0_4)

/-- One staging buffer of the output window, through which a list of stored pieces is read back as a block's
    contents (for pieces that cover the block the choice of buffer does not matter). -/
abbrev VO : View sig .tc .vmem S512x4096 .f32 := (Memref.whole cc0_stg4_0 : Memref sig .tc .vmem S512x4096 .f32).view

/-! ## What each run leaves in the output block -/

/-- The first run's one store is of the whole block: its pieces cover it. -/
theorem coverFirst (c : Dev nD) (i : grid0.Coords) (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : k0_cond1 i = 1#1) (hc2 : ¬ k0_cond2 i = 1#1) (x0 : Vec F S512x4096 .bf16) (x1 x2 : Vec F S256x4096 .bf16) (x3 : Vec F S4096x256 .bf16) (y : S512x4096.Idx) :
    ∃ pc ∈ (runFirst c i a0 h0 a1 h1 a2 h2 a3 h3 a4 h4 hc1 hc2 x0 x1 x2 x3).1, y ∈ pc.1.set :=
  View.cover_of_tiledL (runFirst c i a0 h0 a1 h1 a2 h2 a3 h3 a4 h4 hc1 hc2 x0 x1 x2 x3).1 S512x4096.size (by sl_kernel_rfl) y

/-- What the first run leaves in the output block. -/
def outFirst (c : Dev nD) (i : grid0.Coords) (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : k0_cond1 i = 1#1) (hc2 : ¬ k0_cond2 i = 1#1) (x0 : Vec F S512x4096 .bf16) (x1 x2 : Vec F S256x4096 .bf16) (x3 : Vec F S4096x256 .bf16) : Vec F S512x4096 .f32 :=
  VO.read (Elt F) (VO.writes (Elt F) VO.junk (runFirst c i a0 h0 a1 h1 a2 h2 a3 h3 a4 h4 hc1 hc2 x0 x1 x2 x3).1)

/-- The second run's one store is of the whole block too. -/
theorem coverLater (c : Dev nD) (i : grid0.Coords) (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : ¬ k0_cond1 i = 1#1) (hc2 : k0_cond2 i = 1#1) (x0 : Vec F S512x4096 .bf16) (x1 x2 : Vec F S256x4096 .bf16) (x3 : Vec F S4096x256 .bf16) (xo : Vec F S512x4096 .f32) (y : S512x4096.Idx) :
    ∃ pc ∈ (runLater c i a0 h0 a1 h1 a2 h2 a3 h3 a4 h4 hc1 hc2 x0 x1 x2 x3 xo).1, y ∈ pc.1.set :=
  View.cover_of_tiledL (runLater c i a0 h0 a1 h1 a2 h2 a3 h3 a4 h4 hc1 hc2 x0 x1 x2 x3 xo).1 S512x4096.size (by sl_kernel_rfl) y

/-- What the second run leaves in the output block, given what it found there. -/
def outLater (c : Dev nD) (i : grid0.Coords) (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : ¬ k0_cond1 i = 1#1) (hc2 : k0_cond2 i = 1#1) (x0 : Vec F S512x4096 .bf16) (x1 x2 : Vec F S256x4096 .bf16) (x3 : Vec F S4096x256 .bf16) (xo : Vec F S512x4096 .f32) : Vec F S512x4096 .f32 :=
  VO.read (Elt F) (VO.writes (Elt F) VO.junk (runLater c i a0 h0 a1 h1 a2 h2 a3 h3 a4 h4 hc1 hc2 x0 x1 x2 x3 xo).1)

/-! ## The accumulation, point by point -/

/-- What the output block's staging buffer holds after the body at position `n` of the grid. -/
def acc (c : Dev nD) : (n : ℕ) → n < cfg0.N → Vec F S512x4096 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
      ((cond1_iff ⟨0, hn⟩).mpr (Nat.zero_mod _)) (fun h => (cond2_iff ⟨0, hn⟩).mp h (Nat.zero_mod _))
      (iblk m c 0 ⟨0, hn⟩) (iblk m c 1 ⟨0, hn⟩) (iblk m c 2 ⟨0, hn⟩) (iblk m c 3 ⟨0, hn⟩)
  | n + 1, hn =>
    if h0 : (n + 1) % 43 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        ((cond1_iff ⟨n + 1, hn⟩).mpr h0) (fun h => (cond2_iff ⟨n + 1, hn⟩).mp h h0)
        (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => h0 ((cond1_iff ⟨n + 1, hn⟩).mp h)) ((cond2_iff ⟨n + 1, hn⟩).mpr h0)
        (iblk m c 0 ⟨n + 1, hn⟩) (iblk m c 1 ⟨n + 1, hn⟩) (iblk m c 2 ⟨n + 1, hn⟩) (iblk m c 3 ⟨n + 1, hn⟩)
        (acc c n (Nat.lt_of_succ_lt hn))

/-- `acc` at a point of the first column block. -/
theorem acc_first (c : Dev nD) (t : Fin cfg0.N) (h0 : t.val % 43 = 0) :
    acc m c t.val t.isLt = outFirst c (grid0.coords t) (ms0 t) (hs0 t) (ms1 t) (hs1 t) (ms2 t) (hs2 t) (ms3 t) (hs3 t) (ms4 t) (hs4 t)
      ((cond1_iff t).mpr h0) (fun h => (cond2_iff t).mp h h0) (iblk m c 0 t) (iblk m c 1 t) (iblk m c 2 t) (iblk m c 3 t) := by
  obtain ⟨n, hn⟩ := t
  cases n with
  | zero => exact rfl
  | succ n => exact (dif_pos h0).trans rfl

/-- `acc` at a later point: over what the point before left. -/
theorem acc_later (c : Dev nD) (t : Fin cfg0.N) (h0 : ¬ t.val % 43 = 0) :
    acc m c t.val t.isLt = outLater c (grid0.coords t) (ms0 t) (hs0 t) (ms1 t) (hs1 t) (ms2 t) (hs2 t) (ms3 t) (hs3 t) (ms4 t) (hs4 t)
      (fun h => h0 ((cond1_iff t).mp h)) ((cond2_iff t).mpr h0) (iblk m c 0 t) (iblk m c 1 t) (iblk m c 2 t) (iblk m c 3 t)
      (acc m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block, the output's at `acc`;
    the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = acc m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a later point of a row block the output's staging buffer holds what the body left at the point before: the
    point is not the first, the buffer was not written back in between (that happens only after a row block's last
    column block), and the window is never idle and never clipped. -/
theorem before_4_later (c : Dev nD) (t : Fin cfg0.N) (h0 : ¬ t.val % 43 = 0) (d) :
    (dats m 0 c).before 4 t d = acc m c (t.val - 1) (Nat.lt_of_le_of_lt (Nat.sub_le _ _) t.isLt) := by
  have hN : t.val < 344 := lt_of_lt_of_eq t.isLt (show cfg0.N = 344 from N_0)
  rw [Dat.before_out_kept _ 4 rfl t (fun h => h0 (by rw [h])) (Bool.eq_false_iff.mpr fun h => by have := (flush0_4 _).mp h; dsimp only at this; omega)
    live4 (fun _ _ => rfl)]
  dsimp only [dats]

end Cert.KernelIdeal.Body

end
-- ==== Proof.BodyIdeal.lean ====
/-
  The frame of the program around its one region, from the body's two runs and the pipeline's proof data.

  The body's obligation at a point is one of the two runs, chosen by `t % 43`: the inputs' buffers hold their
  blocks, and at a later point of a row block the output's buffer holds what the point before left. The library's
  launch theorem then runs @main — the host lines before the region, the region, the host line after it — and the
  argument arrays end as launched.
-/
import proofs.«107914_j78786880078279_2_alg».proof.Proof.BodyDataIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; `t % 43` says which run applies; at a later point
    the output's buffer holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 43 = 0
  · rw [acc_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((cond1_iff t).mpr h0) (fun h => (cond2_iff t).mp h h0)
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _)
  · rw [acc_later m c t h0]
    simp only [before_4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((cond1_iff t).mp h)) ((cond2_iff t).mpr h0)
      (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  -- the output window is idle nowhere, so what the body must leave in it is what the proof data name
  simp only [show ∀ i : grid0.Coords, idle0 4 i = false from live4]
  exact sound_body m c t

/-! ## The run and the frame -/

set_option backward.isDefEq.respectTransparency.types false in
/-- Every weakly fair execution of @main terminates; every final state has each array of the pipeline at what the
    library computes from the proof data, and every other unscoped buffer as the host line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.PieceValue.lean ====
/-
  What each run of the body leaves in the output block is the value it stores.

  In either situation the body makes exactly one store into the output block's buffer, through the rectangle of the
  whole block at zero offsets.  A store that covers the block leaves its stored value there whatever the buffer held
  before, and each load through the whole-block rectangle reads the buffer's contents as they are.  So the first run
  leaves the block's contribution computed from the four input blocks, and the later run leaves what it found in the
  output block plus that contribution.
-/
import proofs.«107914_j78786880078279_2_alg».proof.Proof.BodyDataIdeal
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, however spelt. -/
theorem hz : (![0, 0] : Fin 2 → Nat) = fun _ => 0 := funext fun a => by fin_cases a <;> rfl

/-- At a point of the first column block the body's one store covers the output block, so what it leaves there is
    the stored value: the block's contribution computed from the four input blocks, each read whole. -/
theorem outFirst_eq (c : Dev nD) (i : grid0.Coords) (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : k0_cond1 i = 1#1) (hc2 : ¬ k0_cond2 i = 1#1) (x0 : Vec F S512x4096 .bf16) (x1 x2 : Vec F S256x4096 .bf16) (x3 : Vec F S4096x256 .bf16) :
    outFirst c i a0 h0 a1 h1 a2 h2 a3 h3 a4 h4 hc1 hc2 x0 x1 x2 x3 = k0_pay1 x0 x1 x2 x3 := by
  unfold outFirst
  rw [View.read_writes_eq_canon _ _ _ (coverFirst c i a0 h0 a1 h1 a2 h2 a3 h3 a4 h4 hc1 hc2 x0 x1 x2 x3)]
  unfold runFirst
  dsimp only
  rw [View.canon_unit_zero hz]
  simp only [View.readAt_eq_ld, h0.read_unread, h1.read_unread, h2.read_unread, h3.read_unread,
    View.ld_unit_zero (S := S512x4096) hz, View.ld_unit_zero (S := S256x4096) hz, View.ld_unit_zero (S := S4096x256) hz]

/-- At a point of a later column block the body's one store covers the output block too, and what it leaves is the
    stored value: what the block held on entry (the first of the two loads of it) plus the block's contribution. -/
theorem outLater_eq (c : Dev nD) (i : grid0.Coords) (a0 : Memref sig .tc .vmem S512x4096 .bf16) (h0 : a0.IsWhole) (a1 : Memref sig .tc .vmem S256x4096 .bf16) (h1 : a1.IsWhole)
    (a2 : Memref sig .tc .vmem S256x4096 .bf16) (h2 : a2.IsWhole) (a3 : Memref sig .tc .vmem S4096x256 .bf16) (h3 : a3.IsWhole)
    (a4 : Memref sig .tc .vmem S512x4096 .f32) (h4 : a4.IsWhole)
    (hc1 : ¬ k0_cond1 i = 1#1) (hc2 : k0_cond2 i = 1#1) (x0 : Vec F S512x4096 .bf16) (x1 x2 : Vec F S256x4096 .bf16) (x3 : Vec F S4096x256 .bf16) (xo : Vec F S512x4096 .f32) :
    outLater c i a0 h0 a1 h1 a2 h2 a3 h3 a4 h4 hc1 hc2 x0 x1 x2 x3 xo = k0_pay2 x0 x1 x2 x3 xo := by
  unfold outLater
  rw [View.read_writes_eq_canon _ _ _ (coverLater c i a0 h0 a1 h1 a2 h2 a3 h3 a4 h4 hc1 hc2 x0 x1 x2 x3 xo)]
  unfold runLater
  dsimp only
  rw [View.canon_unit_zero hz]
  simp only [View.readAt_eq_ld, h0.read_unread, h1.read_unread, h2.read_unread, h3.read_unread, h4.read_unread,
    View.ld_unit_zero (S := S512x4096) hz, View.ld_unit_zero (S := S256x4096) hz, View.ld_unit_zero (S := S4096x256) hz]

end Cert.KernelIdeal.Body

end
-- ==== Proof.Spec.lean ====
/-
  The function both programs compute, stated once over literal shapes and importing no program.

  For a row `(b, s)` of the activations `x : [2, 2048, 4096]` and a hidden column `j < 11008`:
    gate  = ∑ k, x[b, s, k] · Wg[j, k]        up = ∑ k, x[b, s, k] · Wu[j, k]
    hid   = (gate · logistic gate) · up        (the gated unit: silu of the gate times the up projection)
  and the result at `(b, s, h)` is `∑ j, hid[b, s, j] · Wd[h, j]`: three contractions with the elementwise gate
  between them, every sum a finite sum on the extended reals.  The same function on the rows flattened to
  `r = 2048·b + s` (`rows`), and the share of one block of 256 consecutive hidden columns (`blockPart`), are
  stated beside it: a sum over all 11008 columns is the sum of its 43 blocks' shares taken in order.
-/
import Idealize.ShloMosaic.PureOps.Ideal
import Idealize.ShloMosaic.Lib.ValueIdx

noncomputable section

namespace Cert.Swiglu

open Idealize.ShloMosaic Idealize.ShloMosaic.ValueIdx

/-- The activations' shape, a weight's shape (gate and up projections), the down projection's shape, and the
    activations with their two leading axes flattened. -/
abbrev SX : Shape := ⟨3, ![2, 2048, 4096]⟩
abbrev SW : Shape := ⟨2, ![11008, 4096]⟩
abbrev SD : Shape := ⟨2, ![4096, 11008]⟩
abbrev SR : Shape := ⟨2, ![4096, 4096]⟩

/-- The gated hidden unit from its two pre-activations: `(g · logistic g) · u`. -/
def gated (g u : EReal) : EReal := (g * Ideal.logistic g) * u

/-! ## Over the activations as given: `[2, 2048, 4096]` -/

/-- Row `(b, s)` of `x` against row `j` of a projection's weights. -/
def proj (x : SX.Idx → EReal) (w : SW.Idx → EReal) (b : Fin 2) (s : Fin 2048) (j : Fin 11008) : EReal :=
  ∑ k : Fin 4096, x (ix3 b s k) * w (ix2 j k)

/-- The hidden activation at row `(b, s)`, column `j`. -/
def hid (x : SX.Idx → EReal) (wg wu : SW.Idx → EReal) (b : Fin 2) (s : Fin 2048) (j : Fin 11008) : EReal :=
  gated (proj x wg b s j) (proj x wu b s j)

/-- THE RESULT: the hidden activations of row `(b, s)` against row `h` of the down projection. -/
def result (x : SX.Idx → EReal) (wg wu : SW.Idx → EReal) (wd : SD.Idx → EReal) : SX.Idx → EReal := fun i =>
  ∑ j : Fin 11008, hid x wg wu ⟨(i 0).val, (i 0).isLt⟩ ⟨(i 1).val, (i 1).isLt⟩ j * wd (ix2 ⟨(i 2).val, (i 2).isLt⟩ j)

/-! ## Over the rows flattened: `[4096, 4096]` -/

/-- Row `r` of the flattened activations against row `j` of a projection's weights. -/
def projR (X : SR.Idx → EReal) (w : SW.Idx → EReal) (r : Fin 4096) (j : Fin 11008) : EReal :=
  ∑ k : Fin 4096, X (ix2 r k) * w (ix2 j k)

/-- The hidden activation at flattened row `r`, column `j`. -/
def hidR (X : SR.Idx → EReal) (wg wu : SW.Idx → EReal) (r : Fin 4096) (j : Fin 11008) : EReal :=
  gated (projR X wg r j) (projR X wu r j)

/-- One term of the last contraction: hidden column `j` of row `r` times the down projection's `(h, j)`. -/
def term (X : SR.Idx → EReal) (wg wu : SW.Idx → EReal) (wd : SD.Idx → EReal) (r h : Fin 4096) (j : Fin 11008) : EReal :=
  hidR X wg wu r j * wd (ix2 h j)

/-- The result on flattened rows: all 11008 terms. -/
def rows (X : SR.Idx → EReal) (wg wu : SW.Idx → EReal) (wd : SD.Idx → EReal) : SR.Idx → EReal := fun i =>
  ∑ j : Fin 11008, term X wg wu wd ⟨(i 0).val, (i 0).isLt⟩ ⟨(i 1).val, (i 1).isLt⟩ j

/-- Hidden column `256·n + a` of block `n < 43`. -/
def col (n : Fin 43) (a : Fin 256) : Fin 11008 := ⟨256 * n.val + a.val, by have := n.isLt; have := a.isLt; omega⟩

/-- The share of block `n`: its 256 consecutive terms. -/
def blockPart (X : SR.Idx → EReal) (wg wu : SW.Idx → EReal) (wd : SD.Idx → EReal) (r h : Fin 4096) (n : Fin 43) : EReal :=
  ∑ a : Fin 256, term X wg wu wd r h (col n a)

end Cert.Swiglu

end
-- ==== Proof.PayValue.lean ====
/-
  The kernel body's arithmetic, read at one output element at the ideal values.

  One step of the kernel takes a block of 512 rows of the activations `x`, the 256 rows of the gate and up
  weights `Wg`, `Wu` that belong to one block of hidden columns, and the matching 256 columns of the down
  weights `Wd`.  For row `p` and hidden column `a` of the block it forms
    gate = ∑ k, x[p, k] · Wg[a, k]        up = ∑ k, x[p, k] · Wu[a, k]
    hid  = (gate · logistic gate) · up
  and its contribution to output element `(p, q)` is `∑ a, hid[p, a] · Wd[q, a]` (`pay1_apply`).  On every
  step but the first this contribution is added to what the output block already holds (`pay2_apply`).

  Each contraction is over the second axis of both of its operands and starts from the zero accumulator, so at
  the ideal values it is the plain finite sum of products on the extended reals; a cast between equal shapes
  and the narrowing to the 16-bit format change no element there; the products and the logistic act element by
  element.
-/
import proofs.«107914_j78786880078279_2_alg».proof.Proof.Gen.KernelIdeal.Skeleton
import proofs.«107914_j78786880078279_2_alg».proof.Proof.Spec
import Idealize.ShloMosaic.Lib.ValueIdx
import Idealize.ShloMosaic.Lib.Pipeline.Value
import Idealize.ShloMosaic.PureOps.Ideal.Laws

noncomputable section

namespace Cert.KernelIdeal.PayValue

open Idealize.ShloMosaic Idealize.ShloMosaic.ValueIdx Cert.KernelIdeal Cert.KernelIdeal.Gen

/-! ## The gate and up projections' contraction: `[512, 4096] × [256, 4096] → [512, 256]`, over the second axis of both

  At output element `(p, a)` and contraction position `k` the left operand is read at `(p, k)` and the right at
  `(a, k)`: the first coordinate of each operand index is the operand's own free coordinate, the second is the
  contraction position's single coordinate. -/

theorem up_lhs0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem up_lhs1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
theorem up_rhs0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem up_rhs1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- Into the zero accumulator the contraction at `(p, a)` is `∑ k, l[p, k] · r[a, k]`: the sum over contraction positions, re-indexed by the position's one coordinate. -/
theorem proj_apply (l : FVec Ideal S512x4096 .bf16) (r : FVec Ideal S256x4096 .bf16) (p : Fin 512) (a : Fin 256) :
    matmul dot_S512x4096_S256x4096_S512x256_1_1_0_0_n_n none l r (constant S512x256 .f32 0x00000000#32) (ix2 p a)
      = ∑ k : Fin 4096, l (ix2 p k) * r (ix2 a k) := by
  refine (Ideal.matmul_constant_zero_apply dot_S512x4096_S256x4096_S512x256_1_1_0_0_n_n none l r (ix2 p a)).trans ?_
  rw [← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p a) ((contrEquiv1 dot_S512x4096_S256x4096_S512x256_1_1_0_0_n_n 4096 rfl rfl).symm k) = ix2 p k := funext fun b => Fin.ext (by
    match b with
    | ⟨0, _⟩ => exact up_lhs0 _ _
    | ⟨1, _⟩ => exact (up_lhs1 _ _).trans hk)
  have er : dot_S512x4096_S256x4096_S512x256_1_1_0_0_n_n.rhsIdx (ix2 p a) ((contrEquiv1 dot_S512x4096_S256x4096_S512x256_1_1_0_0_n_n 4096 rfl rfl).symm k) = ix2 a k := funext fun b => Fin.ext (by
    match b with
    | ⟨0, _⟩ => exact up_rhs0 _ _
    | ⟨1, _⟩ => exact (up_rhs1 _ _).trans hk)
  rw [el, er]

/-! ## The down projection's contraction: `[512, 256] × [4096, 256] → [512, 4096]`, over the second axis of both

  At output element `(p, q)` and contraction position `a` the left operand is read at `(p, a)` and the right at
  `(q, a)`. -/

theorem down_lhs0 (i : S512x4096.Idx) (q : dot_S512x256_S4096x256_S512x4096_1_1_0_0_n_n.contr.Idx) :
    (dot_S512x256_S4096x256_S512x4096_1_1_0_0_n_n.lhsIdx i q 0).val = (i 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
theorem down_lhs1 (i : S512x4096.Idx) (q : dot_S512x256_S4096x256_S512x4096_1_1_0_0_n_n.contr.Idx) :
    (dot_S512x256_S4096x256_S512x4096_1_1_0_0_n_n.lhsIdx i q 1).val = (q ⟨0, by decide⟩).val :=
  dot_S512x256_S4096x256_S512x4096_1_1_0_0_n_n.lhsIdx_val_of_single rfl i q
theorem down_rhs0 (i : S512x4096.Idx) (q : dot_S512x256_S4096x256_S512x4096_1_1_0_0_n_n.contr.Idx) :
    (dot_S512x256_S4096x256_S512x4096_1_1_0_0_n_n.rhsIdx i q 0).val = (i 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
theorem down_rhs1 (i : S512x4096.Idx) (q : dot_S512x256_S4096x256_S512x4096_1_1_0_0_n_n.contr.Idx) :
    (dot_S512x256_S4096x256_S512x4096_1_1_0_0_n_n.rhsIdx i q 1).val = (q ⟨0, by decide⟩).val :=
  dot_S512x256_S4096x256_S512x4096_1_1_0_0_n_n.rhsIdx_val_of_single rfl i q

/-- Into the zero accumulator the contraction at `(p, q)` is `∑ a, l[p, a] · r[q, a]`. -/
theorem down_apply (l : FVec Ideal S512x256 .bf16) (r : FVec Ideal S4096x256 .bf16) (p : Fin 512) (a : Fin 4096) :
    matmul dot_S512x256_S4096x256_S512x4096_1_1_0_0_n_n none l r (constant S512x4096 .f32 0x00000000#32) (ix2 p a)
      = ∑ k : Fin 256, l (ix2 p k) * r (ix2 a k) := by
  refine (Ideal.matmul_constant_zero_apply dot_S512x256_S4096x256_S512x4096_1_1_0_0_n_n none l r (ix2 p a)).trans ?_
  rw [← Equiv.sum_comp (contrEquiv1 dot_S512x256_S4096x256_S512x4096_1_1_0_0_n_n 256 rfl rfl).symm]
  refine Finset.sum_congr rfl fun k _ => ?_
  have hk := contrEquiv1_symm_val dot_S512x256_S4096x256_S512x4096_1_1_0_0_n_n 256 rfl rfl k
  have el : dot_S512x256_S4096x256_S512x4096_1_1_0_0_n_n.lhsIdx (ix2 p a) ((contrEquiv1 dot_S512x256_S4096x256_S512x4096_1_1_0_0_n_n 256 rfl rfl).symm k) = ix2 p k := funext fun b => Fin.ext (by
    match b with
    | ⟨0, _⟩ => exact down_lhs0 _ _
    | ⟨1, _⟩ => exact (down_lhs1 _ _).trans hk)
  have er : dot_S512x256_S4096x256_S512x4096_1_1_0_0_n_n.rhsIdx (ix2 p a) ((contrEquiv1 dot_S512x256_S4096x256_S512x4096_1_1_0_0_n_n 256 rfl rfl).symm k) = ix2 a k := funext fun b => Fin.ext (by
    match b with
    | ⟨0, _⟩ => exact down_rhs0 _ _
    | ⟨1, _⟩ => exact (down_rhs1 _ _).trans hk)
  rw [el, er]

/-! ## The two values the body stores -/

/-- The block's contribution to output element `(p, q)`: the gated hidden units of row `p` against row `q` of
    the down weights.  The outer contraction is read by `down_apply`; its left operand at `(p, a)` is, element by
    element, `(g · logistic g) · u` with `g` and `u` the two inner contractions at `(p, a)`, read by `proj_apply`. -/
theorem pay1_apply (x0 : Vec Ideal S512x4096 .bf16) (wg wu : Vec Ideal S256x4096 .bf16) (wd : Vec Ideal S4096x256 .bf16) (p : Fin 512) (q : Fin 4096) :
    k0_pay1 (F := Ideal) x0 wg wu wd (ix2 p q)
      = ∑ a : Fin 256, Cert.Swiglu.gated (∑ k : Fin 4096, x0 (ix2 p k) * wg (ix2 a k)) (∑ k : Fin 4096, x0 (ix2 p k) * wu (ix2 a k)) * wd (ix2 q a) := by
  unfold k0_pay1
  simp only [shapeCast_self]
  refine (down_apply _ _ p q).trans ?_
  refine Finset.sum_congr rfl fun a _ => ?_
  refine congrArg (· * wd (ix2 q a)) ?_
  have hg := proj_apply x0 wg p a
  have hu := proj_apply x0 wu p a
  unfold Cert.Swiglu.gated
  rw [← hg, ← hu]
  rfl

/-- On a later step the stored value at `(p, q)` is what the output block held there plus the block's
    contribution. -/
theorem pay2_apply (x0 : Vec Ideal S512x4096 .bf16) (wg wu : Vec Ideal S256x4096 .bf16) (wd : Vec Ideal S4096x256 .bf16) (acc : Vec Ideal S512x4096 .f32) (p : Fin 512) (q : Fin 4096) :
    k0_pay2 (F := Ideal) x0 wg wu wd acc (ix2 p q) = acc (ix2 p q) + k0_pay1 (F := Ideal) x0 wg wu wd (ix2 p q) := by
  unfold k0_pay2
  simp only [shapeCast_self]
  rfl

end Cert.KernelIdeal.PayValue

end
-- ==== Proof.BlockRead.lean ====
/-
  Where each window's block sits in its array, and the output window's blocks covering the output.

  The kernel runs over a grid of 8 × 43 points, the second axis innermost: point `t` has coordinates
  `(t / 43, t % 43)` — a block of 512 rows of the activations and a block of 256 hidden columns.  At point `t`
    * the activations `[4096, 4096]` are read in the block of rows `512·(t / 43) …`, all 4096 columns;
    * the gate and the up weights `[11008, 4096]` in the block of rows `256·(t % 43) …`, all columns;
    * the down weights `[4096, 11008]` in all 4096 rows, the block of columns `256·(t % 43) …`;
    * the output `[4096, 4096]` in the block of rows `512·(t / 43) …`, all columns.
  Each statement below reads a block at a coordinate pair and says which element of the whole array that is: a
  block's coordinate on an axis is always (block index) × (block extent) + (coordinate inside the block).

  The output is written back at the last point of each row block, `t % 43 = 42`.  Row `r` of the output lies in
  row block `r / 512`, whose last point is `43·(r / 512) + 42`: every index of the output array is in the block
  of a point that writes back (`cover4`).
-/
import proofs.«107914_j78786880078279_2_alg».proof.Proof.Gen.KernelIdeal.Frame
import Idealize.ShloMosaic.Lib.ValueIdx
import Idealize.ShloMosaic.Lib.Pipeline.Value

noncomputable section

namespace Cert.KernelIdeal.BlockRead

open Idealize.ShloMosaic Idealize.ShloMosaic.ValueIdx Idealize.ShloMosaic.TcCoe Idealize.SL.Sem Cert.KernelIdeal Cert.KernelIdeal.Gen

variable {F : FTy → Type} [FloatOps F]
variable (m : (ℓ : Loc nD τ sig) → Buf (Elt F) ℓ)

/-- The grid has 344 = 8 · 43 points. -/
theorem point_lt (t : Fin cfg0.N) : t.val < 344 := by
  have ht : t.val < grid0.N := t.isLt
  rw [N_0] at ht
  exact ht

/-! ## The block indices, decided once over the 344 points -/

/-- The activations' block index at point `t` is `(t / 43, 0)`. -/
theorem index_x : ∀ t : Fin cfg0.N, win0_0.index t (0 : Fin 2) = t.val / 43 ∧ win0_0.index t (1 : Fin 2) = 0 :=
  (by decide +kernel : ∀ t : Fin grid0.N, _)
/-- The gate weights' block index at point `t` is `(t % 43, 0)`. -/
theorem index_gate : ∀ t : Fin cfg0.N, win0_1.index t (0 : Fin 2) = t.val % 43 ∧ win0_1.index t (1 : Fin 2) = 0 :=
  (by decide +kernel : ∀ t : Fin grid0.N, _)
/-- The up weights' block index at point `t` is `(t % 43, 0)`. -/
theorem index_up : ∀ t : Fin cfg0.N, win0_2.index t (0 : Fin 2) = t.val % 43 ∧ win0_2.index t (1 : Fin 2) = 0 :=
  (by decide +kernel : ∀ t : Fin grid0.N, _)
/-- The down weights' block index at point `t` is `(0, t % 43)`. -/
theorem index_down : ∀ t : Fin cfg0.N, win0_3.index t (0 : Fin 2) = 0 ∧ win0_3.index t (1 : Fin 2) = t.val % 43 :=
  (by decide +kernel : ∀ t : Fin grid0.N, _)
/-- The output's block index at point `t` is `(t / 43, 0)`. -/
theorem index_out : ∀ t : Fin cfg0.N, win0_4.index t (0 : Fin 2) = t.val / 43 ∧ win0_4.index t (1 : Fin 2) = 0 :=
  (by decide +kernel : ∀ t : Fin grid0.N, _)

/-! ## The input blocks read at a coordinate pair -/

/-- The activations' block at point `t`, at `(p, k)`, is the array at row `512·(t / 43) + p`, column `k`. -/
theorem iblk0_apply (c : Dev nD) (t : Fin cfg0.N) (p : Fin 512) (k : Fin 4096) :
    (iblk m c 0 t : S512x4096.Idx → Elt F .bf16) (ix2 p k)
      = V m c main_v1 (ix2 ⟨512 * (t.val / 43) + p.val, by have := point_lt t; have := p.isLt; omega⟩ k) := by
  show V m c main_v1 (((cfg0.win 0).blk t).view.emb (ix2 p k)) = V m c main_v1 _
  refine congrArg _ ?_
  obtain ⟨e0, e1⟩ := index_x t
  funext a; apply Fin.ext
  match a with
  | ⟨0, _⟩ => show win0_0.index t (0 : Fin 2) * 512 + 1 * p.val = 512 * (t.val / 43) + p.val; omega
  | ⟨1, _⟩ => show win0_0.index t (1 : Fin 2) * 4096 + 1 * k.val = k.val; omega

/-- The gate weights' block at point `t`, at `(a, k)`, is the array at row `256·(t % 43) + a`, column `k`. -/
theorem iblk1_apply (c : Dev nD) (t : Fin cfg0.N) (a : Fin 256) (k : Fin 4096) :
    (iblk m c 1 t : S256x4096.Idx → Elt F .bf16) (ix2 a k)
      = V m c main_v2 (ix2 ⟨256 * (t.val % 43) + a.val, by have := a.isLt; omega⟩ k) := by
  show V m c main_v2 (((cfg0.win 1).blk t).view.emb (ix2 a k)) = V m c main_v2 _
  refine congrArg _ ?_
  obtain ⟨e0, e1⟩ := index_gate t
  funext b; apply Fin.ext
  match b with
  | ⟨0, _⟩ => show win0_1.index t (0 : Fin 2) * 256 + 1 * a.val = 256 * (t.val % 43) + a.val; omega
  | ⟨1, _⟩ => show win0_1.index t (1 : Fin 2) * 4096 + 1 * k.val = k.val; omega

/-- The up weights' block at point `t`, at `(a, k)`, is the array at row `256·(t % 43) + a`, column `k`. -/
theorem iblk2_apply (c : Dev nD) (t : Fin cfg0.N) (a : Fin 256) (k : Fin 4096) :
    (iblk m c 2 t : S256x4096.Idx → Elt F .bf16) (ix2 a k)
      = V m c main_v3 (ix2 ⟨256 * (t.val % 43) + a.val, by have := a.isLt; omega⟩ k) := by
  show V m c main_v3 (((cfg0.win 2).blk t).view.emb (ix2 a k)) = V m c main_v3 _
  refine congrArg _ ?_
  obtain ⟨e0, e1⟩ := index_up t
  funext b; apply Fin.ext
  match b with
  | ⟨0, _⟩ => show win0_2.index t (0 : Fin 2) * 256 + 1 * a.val = 256 * (t.val % 43) + a.val; omega
  | ⟨1, _⟩ => show win0_2.index t (1 : Fin 2) * 4096 + 1 * k.val = k.val; omega

/-- The down weights' block at point `t`, at `(q, a)`, is the array at row `q`, column `256·(t % 43) + a`. -/
theorem iblk3_apply (c : Dev nD) (t : Fin cfg0.N) (q : Fin 4096) (a : Fin 256) :
    (iblk m c 3 t : S4096x256.Idx → Elt F .bf16) (ix2 q a)
      = V m c main_v4 (ix2 q ⟨256 * (t.val % 43) + a.val, by have := a.isLt; omega⟩) := by
  show V m c main_v4 (((cfg0.win 3).blk t).view.emb (ix2 q a)) = V m c main_v4 _
  refine congrArg _ ?_
  obtain ⟨e0, e1⟩ := index_down t
  funext b; apply Fin.ext
  match b with
  | ⟨0, _⟩ => show win0_3.index t (0 : Fin 2) * 4096 + 1 * q.val = q.val; omega
  | ⟨1, _⟩ => show win0_3.index t (1 : Fin 2) * 256 + 1 * a.val = 256 * (t.val % 43) + a.val; omega

/-! ## The output window -/

/-- Block `t` of a function `G` on the whole output array, at `(p, q)`, is `G` at row `512·(t / 43) + p`,
    column `q`. -/
theorem blk4_read (t : Fin cfg0.N) (G : S4096x4096.Idx → Elt F .f32) (p : Fin 512) (q : Fin 4096) :
    (((cfg0.win 4).blk t).view.read (Elt F) G : S512x4096.Idx → Elt F .f32) (ix2 p q)
      = G (ix2 ⟨512 * (t.val / 43) + p.val, by have := point_lt t; have := p.isLt; omega⟩ q) := by
  show G (((cfg0.win 4).blk t).view.emb (ix2 p q)) = G _
  refine congrArg _ ?_
  obtain ⟨e0, e1⟩ := index_out t
  funext a; apply Fin.ext
  match a with
  | ⟨0, _⟩ => show win0_4.index t (0 : Fin 2) * 512 + 1 * p.val = 512 * (t.val / 43) + p.val; omega
  | ⟨1, _⟩ => show win0_4.index t (1 : Fin 2) * 4096 + 1 * q.val = q.val; omega

/-- An index of the output array is in point `t`'s block iff each coordinate is in the block's range on its
    axis. -/
theorem mem_blk4 (t : Fin cfg0.N) (i : S4096x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v5).slice (win0_4.rect t)).set ↔ _
  rw [View.set_slice_whole, Rect.mem_set_unit]
  exact Iff.rfl

/-- Row `r` of the output is in the block of point `43·(r / 512) + 42`, the last point of row block `r / 512`,
    which writes back. -/
theorem cover4_idx (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, tv⟩ : ∃ t : Fin cfg0.N, t.val = 43 * ((i 0).val / 512) + 42 :=
    ⟨⟨43 * ((i 0).val / 512) + 42, by show _ < grid0.N; rw [N_0]; omega⟩, rfl⟩
  refine ⟨t, (flush0_4 t).mpr (by omega), ?_⟩
  rw [mem_blk4]
  obtain ⟨e0, e1⟩ := index_out t
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 4096 ≤ (i 1).val ∧ (i 1).val < win0_4.index t (1 : Fin 2) * 4096 + 4096; omega

/-- Every index of the output array lies in the block of a point that writes back. -/
theorem cover4 (c : Dev nD) : ∀ i : ((cfg0.win 4).arr.view.loc (c.tc : Thread nD τ)).2.ty.Idx,
    ∃ t : Fin cfg0.N, (cfg0.win 4).flush t = true ∧ i ∈ ((cfg0.win 4).blk t).view.set :=
  fun i => cover4_idx i

end Cert.KernelIdeal.BlockRead

end
-- ==== Proof.BlockSum.lean ====
/-
  The sum over all 11008 hidden columns, taken block by block.

  The columns split into 43 consecutive blocks of 256: column `256·n + a` is the `a`-th of block `n`.  A sum
  over all columns is therefore the sum over the blocks of each block's own sum (`sum_cols`), and adding the
  blocks' shares one after the other, each on the right of what has been added so far (`partialSum`), gives
  the same total (`partialSum_last`).  Only commutativity and associativity of the addition are used: nothing
  is assumed finite, so all of it holds on the extended reals as it stands.
-/
import proofs.«107914_j78786880078279_2_alg».proof.Proof.Spec

noncomputable section

namespace Cert.Swiglu

open Idealize.ShloMosaic Idealize.ShloMosaic.ValueIdx

/-- The shares of the blocks added up in order: the first block's share, then each later block's added on
    the right. -/
def partialSum (f : Fin 43 → EReal) : (n : ℕ) → n < 43 → EReal
  | 0, h => f ⟨0, h⟩
  | n + 1, h => partialSum f n (Nat.lt_of_succ_lt h) + f ⟨n + 1, h⟩

/-- Adding the first `n + 1` shares in order is their sum. -/
theorem partialSum_eq (f : Fin 43 → EReal) (n : ℕ) (h : n < 43) :
    partialSum f n h = ∑ i : Fin (n + 1), f ⟨i.val, by have := i.isLt; omega⟩ := by
  induction n with
  | zero => simp [partialSum]
  | succ n ih =>
    rw [partialSum, ih (Nat.lt_of_succ_lt h)]
    exact (Fin.sum_univ_castSucc (fun i : Fin (n + 1 + 1) => f ⟨i.val, by have := i.isLt; omega⟩)).symm

/-- Adding all 43 shares in order is their sum. -/
theorem partialSum_last (f : Fin 43 → EReal) : partialSum f 42 (by norm_num) = ∑ n : Fin 43, f n := by
  rw [partialSum_eq]

/-- A pair (block, place in the block) is a column, and every column is exactly one such pair. -/
def colEquiv : Fin 43 × Fin 256 ≃ Fin 11008 :=
  (finProdFinEquiv : Fin 43 × Fin 256 ≃ Fin (43 * 256)).trans (finCongr (by norm_num))

theorem colEquiv_apply (n : Fin 43) (a : Fin 256) : colEquiv (n, a) = col n a := by
  apply Fin.ext
  simp only [colEquiv, col, Equiv.trans_apply, finProdFinEquiv_apply_val, finCongr_apply, Fin.coe_cast]
  omega

/-- A sum over all columns is the sum over the blocks of the sums within each block. -/
theorem sum_cols (g : Fin 11008 → EReal) :
    ∑ j : Fin 11008, g j = ∑ n : Fin 43, ∑ a : Fin 256, g (col n a) := by
  calc ∑ j : Fin 11008, g j
      = ∑ p : Fin 43 × Fin 256, g (colEquiv p) := (Equiv.sum_comp colEquiv g).symm
    _ = ∑ n : Fin 43, ∑ a : Fin 256, g (colEquiv (n, a)) := Fintype.sum_prod_type _
    _ = ∑ n : Fin 43, ∑ a : Fin 256, g (col n a) := by simp only [colEquiv_apply]

/-- The result at row `r`, output column `h`, is the blocks' shares added in order. -/
theorem rows_eq_blocks (X : SR.Idx → EReal) (wg wu : SW.Idx → EReal) (wd : SD.Idx → EReal) (r h : Fin 4096) :
    ∑ j : Fin 11008, term X wg wu wd r h j = partialSum (blockPart X wg wu wd r h) 42 (by norm_num) := by
  rw [partialSum_last, sum_cols]
  rfl

end Cert.Swiglu

end
-- ==== Proof.AccValue.lean ====
/-
  The accumulation in the output block, read at an index.

  The grid runs through 8 row blocks of 512 rows and, innermost, 43 column blocks of 256 hidden columns; position
  `n` is row block `n / 43`, column block `n % 43`.  At each point the body computes, from the point's blocks of the
  four arrays, the column block's share of every output element of the row block: for row `512·(n / 43) + p` and
  output column `q`, the sum over the block's 256 hidden columns of the gated hidden unit times the down weight.
  At the first column block it stores the share; at each later one it adds the share to what the block holds.  So
  after position `n` the block holds, at `(p, q)`, the shares of column blocks `0 … n % 43` added in that order.
-/
import proofs.«107914_j78786880078279_2_alg».proof.Proof.PieceValue
import proofs.«107914_j78786880078279_2_alg».proof.Proof.PayValue
import proofs.«107914_j78786880078279_2_alg».proof.Proof.BlockRead
import proofs.«107914_j78786880078279_2_alg».proof.Proof.BlockSum

noncomputable section

namespace Cert.KernelIdeal.AccValue

open Idealize.ShloMosaic Idealize.ShloMosaic.ValueIdx Idealize.ShloMosaic.TcCoe Idealize.SL.Sem Cert.KernelIdeal Cert.KernelIdeal.Gen

/-! ## Adding the shares in order, at an index given up to equality -/

/-- At the first block the running sum is that block's share. -/
theorem partialSum_of_zero (f : Fin 43 → EReal) {a : ℕ} (ha : a < 43) (h : a = 0) :
    Cert.Swiglu.partialSum f a ha = f ⟨a, ha⟩ := by
  subst h; rfl

/-- At a later block the running sum is the one before plus that block's share. -/
theorem partialSum_of_succ (f : Fin 43 → EReal) {a b : ℕ} (ha : a < 43) (hb : b < 43) (h : a = b + 1) :
    Cert.Swiglu.partialSum f a ha = Cert.Swiglu.partialSum f b hb + f ⟨a, ha⟩ := by
  subst h; rfl

/-! ## One block's contribution is one block's share -/

/-- The value the body computes from four blocks, at `(p, q)`, is the share of column block `nb` at row `r`, output
    column `q`, when the blocks are the matching pieces of the four arrays: row `p` of the activations' block is row
    `r` of the activations, row `a` of each weight block is row `256·nb + a` of the weights, and column `a` of the
    down weights' block is their column `256·nb + a`.  Both sides are the same sum over `a` of gated products. -/
theorem share_eq (X : Cert.Swiglu.SR.Idx → EReal) (Wg Wu : Cert.Swiglu.SW.Idx → EReal) (Wd : Cert.Swiglu.SD.Idx → EReal)
    (x0 : Vec Ideal S512x4096 .bf16) (wg wu : Vec Ideal S256x4096 .bf16) (wd : Vec Ideal S4096x256 .bf16)
    (r : Fin 4096) (nb : Fin 43) (p : Fin 512) (q : Fin 4096)
    (e0 : ∀ k : Fin 4096, x0 (ix2 p k) = X (ix2 r k))
    (e1 : ∀ (a : Fin 256) (k : Fin 4096), wg (ix2 a k) = Wg (ix2 (Cert.Swiglu.col nb a) k))
    (e2 : ∀ (a : Fin 256) (k : Fin 4096), wu (ix2 a k) = Wu (ix2 (Cert.Swiglu.col nb a) k))
    (e3 : ∀ a : Fin 256, wd (ix2 q a) = Wd (ix2 q (Cert.Swiglu.col nb a))) :
    k0_pay1 (F := Ideal) x0 wg wu wd (ix2 p q) = Cert.Swiglu.blockPart X Wg Wu Wd r q nb := by
  rw [PayValue.pay1_apply]
  unfold Cert.Swiglu.blockPart Cert.Swiglu.term Cert.Swiglu.hidR Cert.Swiglu.projR
  refine Finset.sum_congr rfl fun a _ => ?_
  simp only [e0, e1, e2, e3]

variable (m : (ℓ : Loc nD τ sig) → Buf (Elt Ideal) ℓ)

/-- The share of column block `nb` at row `r`, output column `q`, over the four arrays as the region finds them. -/
abbrev share (c : Dev nD) (r q : Fin 4096) (nb : Fin 43) : EReal :=
  Cert.Swiglu.blockPart (V m c main_v1) (V m c main_v2) (V m c main_v3) (V m c main_v4) r q nb

/-- What the body computes at grid point `t` from the point's four input blocks is the share of the point's column
    block `t % 43` at the point's row `512·(t / 43) + p`. -/
theorem point_share (c : Dev nD) (t : Fin cfg0.N) (p : Fin 512) (q : Fin 4096)
    (r : Fin 4096) (hr : r.val = 512 * (t.val / 43) + p.val) (nb : Fin 43) (hnb : nb.val = t.val % 43) :
    k0_pay1 (F := Ideal) (iblk m c 0 t) (iblk m c 1 t) (iblk m c 2 t) (iblk m c 3 t) (ix2 p q) = share m c r q nb :=
  share_eq (V m c main_v1) (V m c main_v2) (V m c main_v3) (V m c main_v4)
    (iblk m c 0 t) (iblk m c 1 t) (iblk m c 2 t) (iblk m c 3 t) r nb p q
    (fun k => (BlockRead.iblk0_apply m c t p k).trans
      (congrArg (fun z : Fin 4096 => (V m c main_v1 : S4096x4096.Idx → EReal) (ix2 z k)) (Fin.ext hr.symm)))
    (fun a k => (BlockRead.iblk1_apply m c t a k).trans
      (congrArg (fun z : Fin 11008 => (V m c main_v2 : S11008x4096.Idx → EReal) (ix2 z k))
        (Fin.ext (by show 256 * (t.val % 43) + a.val = 256 * nb.val + a.val; rw [hnb]))))
    (fun a k => (BlockRead.iblk2_apply m c t a k).trans
      (congrArg (fun z : Fin 11008 => (V m c main_v3 : S11008x4096.Idx → EReal) (ix2 z k))
        (Fin.ext (by show 256 * (t.val % 43) + a.val = 256 * nb.val + a.val; rw [hnb]))))
    (fun a => (BlockRead.iblk3_apply m c t q a).trans
      (congrArg (fun z : Fin 11008 => (V m c main_v4 : S4096x11008.Idx → EReal) (ix2 q z))
        (Fin.ext (by show 256 * (t.val % 43) + a.val = 256 * nb.val + a.val; rw [hnb]))))

/-- At a point of the first column block the output block holds that block's share. -/
theorem first_apply (c : Dev nD) (t : Fin cfg0.N) (h0 : t.val % 43 = 0) (p : Fin 512) (q : Fin 4096)
    (r : Fin 4096) (hr : r.val = 512 * (t.val / 43) + p.val) (nb : Fin 43) (hnb : nb.val = t.val % 43) :
    (Body.acc m c t.val t.isLt : S512x4096.Idx → EReal) (ix2 p q) = share m c r q nb := by
  have e := Body.acc_first m c t h0
  have e' := Body.outFirst_eq c (grid0.coords t) (Body.ms0 t) (Body.hs0 t) (Body.ms1 t) (Body.hs1 t) (Body.ms2 t) (Body.hs2 t)
    (Body.ms3 t) (Body.hs3 t) (Body.ms4 t) (Body.hs4 t) ((Body.cond1_iff t).mpr h0) (fun h => (Body.cond2_iff t).mp h h0)
    (iblk m c 0 t) (iblk m c 1 t) (iblk m c 2 t) (iblk m c 3 t)
  exact (congrFun (e.trans e') (ix2 p q)).trans (point_share m c t p q r hr nb hnb)

/-- At a later point the output block holds what the point before left plus the point's column block's share. -/
theorem later_apply (c : Dev nD) (t : Fin cfg0.N) (h0 : ¬ t.val % 43 = 0) (p : Fin 512) (q : Fin 4096)
    (r : Fin 4096) (hr : r.val = 512 * (t.val / 43) + p.val) (nb : Fin 43) (hnb : nb.val = t.val % 43) :
    (Body.acc m c t.val t.isLt : S512x4096.Idx → EReal) (ix2 p q)
      = (Body.acc m c (t.val - 1) (Nat.lt_of_le_of_lt (Nat.sub_le _ _) t.isLt) : S512x4096.Idx → EReal) (ix2 p q)
        + share m c r q nb := by
  have e := Body.acc_later m c t h0
  have e' := Body.outLater_eq c (grid0.coords t) (Body.ms0 t) (Body.hs0 t) (Body.ms1 t) (Body.hs1 t) (Body.ms2 t) (Body.hs2 t)
    (Body.ms3 t) (Body.hs3 t) (Body.ms4 t) (Body.hs4 t) (fun h => h0 ((Body.cond1_iff t).mp h)) ((Body.cond2_iff t).mpr h0)
    (iblk m c 0 t) (iblk m c 1 t) (iblk m c 2 t) (iblk m c 3 t)
    (Body.acc m c (t.val - 1) (Nat.lt_of_le_of_lt (Nat.sub_le _ _) t.isLt))
  refine (congrFun (e.trans e') (ix2 p q)).trans ?_
  refine (PayValue.pay2_apply (iblk m c 0 t) (iblk m c 1 t) (iblk m c 2 t) (iblk m c 3 t)
    (Body.acc m c (t.val - 1) (Nat.lt_of_le_of_lt (Nat.sub_le _ _) t.isLt)) p q).trans ?_
  exact congrArg (fun z : EReal =>
    (Body.acc m c (t.val - 1) (Nat.lt_of_le_of_lt (Nat.sub_le _ _) t.isLt) : S512x4096.Idx → EReal) (ix2 p q) + z)
    (point_share m c t p q r hr nb hnb)

/-- THE ACCUMULATION: after the body at grid position `n`, the output block of row block `n / 43` holds at `(p, q)`
    the shares of column blocks `0 … n % 43` of row `512·(n / 43) + p`, output column `q`, added in order.  By
    induction on `n`: a point of the first column block starts the sum afresh; a later point is in the same row
    block as the one before it and adds the next column block's share. -/
theorem acc_apply (c : Dev nD) (n : ℕ) (hn : n < cfg0.N) (p : Fin 512) (q : Fin 4096) :
    (Cert.KernelIdeal.Body.acc m c n hn : S512x4096.Idx → EReal) (ix2 p q)
      = Cert.Swiglu.partialSum
          (Cert.Swiglu.blockPart (V m c main_v1) (V m c main_v2) (V m c main_v3) (V m c main_v4)
            ⟨512 * (n / 43) + p.val, by
              have h : n < 344 := lt_of_lt_of_eq hn (show cfg0.N = 344 from N_0)
              have hp := p.isLt
              omega⟩ q)
          (n % 43) (Nat.mod_lt _ (by norm_num)) := by
  induction n with
  | zero =>
    have hp := p.isLt
    refine (first_apply m c ⟨0, hn⟩ (Nat.zero_mod 43) p q ⟨512 * (0 / 43) + p.val, by omega⟩ rfl
      ⟨0 % 43, Nat.mod_lt _ (by norm_num)⟩ rfl).trans ?_
    exact (partialSum_of_zero _ _ (Nat.zero_mod 43)).symm
  | succ n ih =>
    have hN : n + 1 < 344 := lt_of_lt_of_eq hn (show cfg0.N = 344 from N_0)
    have hp := p.isLt
    by_cases h0 : (n + 1) % 43 = 0
    · refine (first_apply m c ⟨n + 1, hn⟩ h0 p q ⟨512 * ((n + 1) / 43) + p.val, by omega⟩ rfl
        ⟨(n + 1) % 43, Nat.mod_lt _ (by norm_num)⟩ rfl).trans ?_
      exact (partialSum_of_zero _ _ h0).symm
    · have hmod : (n + 1) % 43 = n % 43 + 1 := by omega
      have hrow : (⟨512 * (n / 43) + p.val, by omega⟩ : Fin 4096) = ⟨512 * ((n + 1) / 43) + p.val, by omega⟩ :=
        Fin.ext (by show 512 * (n / 43) + p.val = 512 * ((n + 1) / 43) + p.val; omega)
      refine (later_apply m c ⟨n + 1, hn⟩ h0 p q ⟨512 * ((n + 1) / 43) + p.val, by omega⟩ rfl
        ⟨(n + 1) % 43, Nat.mod_lt _ (by norm_num)⟩ rfl).trans ?_
      rw [partialSum_of_succ _ _ (Nat.mod_lt n (by norm_num)) hmod]
      have hi := ih (Nat.lt_of_succ_lt hn)
      rw [hrow] at hi
      exact congrArg (fun z : EReal => z + share m c ⟨512 * ((n + 1) / 43) + p.val, by omega⟩ q
        ⟨(n + 1) % 43, Nat.mod_lt _ (by norm_num)⟩) hi

end Cert.KernelIdeal.AccValue

end
-- ==== Proof.HostSide.lean ====
/-
  The host operations around the kernel's region, read as functions of the argument arrays, and the layout law that
  joins the two forms of the specification.

  Before the region the program flattens the activations `[2, 2048, 4096]` to `[4096, 4096]` and changes the format of
  the four arrays; on the extended reals a format change is the identity and a reshape keeps every element at its
  row-major position, so row `r` of the flattened array is row `(r / 2048, r % 2048)` of the activations.  After the
  region the result `[4096, 4096]` is reshaped back: element `(b, s, h)` is element `(2048·b + s, h)`.  The
  specification's result over `[2, 2048, 4096]` is, under the same correspondence of rows, its result over the
  flattened rows.
-/
import proofs.«107914_j78786880078279_2_alg».proof.Proof.Gen.KernelIdeal.Frame
import proofs.«107914_j78786880078279_2_alg».proof.Proof.Spec
import Idealize.ShloMosaic.Lib.ValueIdx
import Idealize.ShloMosaic.Lib.Pipeline.Value
import Idealize.ShloMosaic.Lib.StableHlo.Run

noncomputable section

namespace Cert.KernelIdeal.HostSide

open Idealize.ShloMosaic Idealize.ShloMosaic.ValueIdx Idealize.ShloMosaic.TcCoe Idealize.SL.Sem Cert.KernelIdeal Cert.KernelIdeal.Gen

/-! ## The layout law: rows `(b, s)` and flattened rows `2048·b + s` -/

/-- The activations with their two leading axes flattened: row `r` is row `(r / 2048, r % 2048)`. -/
def flat (x : Cert.Swiglu.SX.Idx → EReal) : Cert.Swiglu.SR.Idx → EReal := fun j =>
  x (ix3 ⟨(j 0).val / 2048, by have h : (j 0).val < 4096 := (j 0).isLt; omega⟩
         ⟨(j 0).val % 2048, Nat.mod_lt _ (by norm_num)⟩
         ⟨(j 1).val, (j 1).isLt⟩)

/-- A projection of row `(b, s)` is the projection of the flattened row `r = 2048·b + s`: the quotient and the
    remainder of `r` by 2048 are `b` and `s`. -/
theorem proj_eq_projR (x : Cert.Swiglu.SX.Idx → EReal) (w : Cert.Swiglu.SW.Idx → EReal) (b : Fin 2) (s : Fin 2048)
    (r : Fin 4096) (hr : r.val = 2048 * b.val + s.val) (j : Fin 11008) :
    Cert.Swiglu.proj x w b s j = Cert.Swiglu.projR (flat x) w r j := by
  unfold Cert.Swiglu.proj Cert.Swiglu.projR
  refine Finset.sum_congr rfl fun k _ => ?_
  have hb := b.isLt
  have hs := s.isLt
  have e : (ix3 b s k : Cert.Swiglu.SX.Idx)
      = ix3 ⟨r.val / 2048, by have h := r.isLt; omega⟩ ⟨r.val % 2048, Nat.mod_lt _ (by norm_num)⟩ ⟨k.val, k.isLt⟩ := by
    funext a
    match a with
    | ⟨0, _⟩ => exact Fin.ext (by show b.val = r.val / 2048; omega)
    | ⟨1, _⟩ => exact Fin.ext (by show s.val = r.val % 2048; omega)
    | ⟨2, _⟩ => rfl
  rw [e]
  rfl

/-- THE LAYOUT LAW: the result at `(b, s, h)` is the result over flattened rows at `(2048·b + s, h)`. -/
theorem result_eq_rows (x : Cert.Swiglu.SX.Idx → EReal) (wg wu : Cert.Swiglu.SW.Idx → EReal)
    (wd : Cert.Swiglu.SD.Idx → EReal) (i : Cert.Swiglu.SX.Idx) :
    Cert.Swiglu.result x wg wu wd i
      = Cert.Swiglu.rows (flat x) wg wu wd
          (ix2 ⟨2048 * (i 0).val + (i 1).val, by
                  have h0 : (i 0).val < 2 := (i 0).isLt
                  have h1 : (i 1).val < 2048 := (i 1).isLt
                  omega⟩
               ⟨(i 2).val, (i 2).isLt⟩) := by
  have h0 : (i 0).val < 2 := (i 0).isLt
  have h1 : (i 1).val < 2048 := (i 1).isLt
  unfold Cert.Swiglu.result Cert.Swiglu.rows Cert.Swiglu.term Cert.Swiglu.hid Cert.Swiglu.hidR
  refine Finset.sum_congr rfl fun j _ => ?_
  show Cert.Swiglu.gated (Cert.Swiglu.proj x wg ⟨(i 0).val, h0⟩ ⟨(i 1).val, h1⟩ j) (Cert.Swiglu.proj x wu ⟨(i 0).val, h0⟩ ⟨(i 1).val, h1⟩ j)
        * wd (ix2 ⟨(i 2).val, (i 2).isLt⟩ j)
      = Cert.Swiglu.gated (Cert.Swiglu.projR (flat x) wg ⟨2048 * (i 0).val + (i 1).val, by omega⟩ j)
          (Cert.Swiglu.projR (flat x) wu ⟨2048 * (i 0).val + (i 1).val, by omega⟩ j)
        * wd (ix2 ⟨(i 2).val, (i 2).isLt⟩ j)
  rw [proj_eq_projR x wg ⟨(i 0).val, h0⟩ ⟨(i 1).val, h1⟩ ⟨2048 * (i 0).val + (i 1).val, by omega⟩ rfl j,
    proj_eq_projR x wu ⟨(i 0).val, h0⟩ ⟨(i 1).val, h1⟩ ⟨2048 * (i 0).val + (i 1).val, by omega⟩ rfl j]

/-! ## The host tail: the reshape back to `[2, 2048, 4096]` -/

/-- A `[4096, 4096]` array reshaped to `[2, 2048, 4096]` holds at `(b, s, h)` its element `(2048·b + s, h)`: the two
    indices have the same row-major position `(2048·b + s)·4096 + h`. -/
theorem reshape_back (Y : FVec Ideal S4096x4096 .f32) (i : S2x2048x4096.Idx) :
    shapeCast S2x2048x4096 Y shapeCasts_S4096x4096_S2x2048x4096 i
      = Y (ix2 ⟨2048 * (i 0).val + (i 1).val, by
                  have h0 : (i 0).val < 2 := (i 0).isLt
                  have h1 : (i 1).val < 2048 := (i 1).isLt
                  omega⟩
               ⟨(i 2).val, (i 2).isLt⟩) := by
  refine shapeCast_apply Y shapeCasts_S4096x4096_S2x2048x4096 i _ ?_
  rw [Shape.rowMajor_val_two, Shape.rowMajor_val_three]
  show (2048 * (i 0).val + (i 1).val) * 4096 + (i 2).val = ((i 0).val * 2048 + (i 1).val) * 4096 + (i 2).val
  omega

/-- The host operation after the region, from any contents `W` of the buffers: the result array `[2, 2048, 4096]` holds
    at `(b, s, h)` what the region's output array `[4096, 4096]` holds at `(2048·b + s, h)`. -/
theorem tail_v6 (W : Valuation τ sig (Elt Ideal)) (i : S2x2048x4096.Idx) :
    (StableHlo.after hostOps1 W (Proc.devRef .tc main_v6) : S2x2048x4096.Idx → EReal) i
      = (W (Proc.devRef .tc main_v5) : S4096x4096.Idx → EReal)
          (ix2 ⟨2048 * (i 0).val + (i 1).val, by
                  have h0 : (i 0).val < 2 := (i 0).isLt
                  have h1 : (i 1).val < 2048 := (i 1).isLt
                  omega⟩
               ⟨(i 2).val, (i 2).isLt⟩) := by
  have e : (StableHlo.after hostOps1 W (Proc.devRef .tc main_v6) : S2x2048x4096.Idx → EReal)
      = shapeCast S2x2048x4096 (W (Proc.devRef .tc main_v5) : S4096x4096.Idx → EReal) shapeCasts_S4096x4096_S2x2048x4096 := by
    after_results
    rfl
  rw [e]
  exact reshape_back _ i

/-! ## The host operations before the region -/

variable (m : (ℓ : Loc nD τ sig) → Buf (Elt Ideal) ℓ)

/-- The second window's array is the gate weights as launched: a format change is the identity on extended reals. -/
theorem V_v2 (c : Dev nD) : (V m c main_v2 : S11008x4096.Idx → EReal) = m ((c : Thread nD τ).loc main_arg1) := by
  show StableHlo.after hostOps0 (fun b => m (c, b)) (Proc.devRef .tc main_v2) = _
  after_results
  rfl

/-- The third window's array is the up weights as launched. -/
theorem V_v3 (c : Dev nD) : (V m c main_v3 : S11008x4096.Idx → EReal) = m ((c : Thread nD τ).loc main_arg2) := by
  show StableHlo.after hostOps0 (fun b => m (c, b)) (Proc.devRef .tc main_v3) = _
  after_results
  rfl

/-- The fourth window's array is the down weights as launched. -/
theorem V_v4 (c : Dev nD) : (V m c main_v4 : S4096x11008.Idx → EReal) = m ((c : Thread nD τ).loc main_arg3) := by
  show StableHlo.after hostOps0 (fun b => m (c, b)) (Proc.devRef .tc main_v4) = _
  after_results
  rfl

/-- The first window's array is the activations reshaped to `[4096, 4096]` (the format change the identity). -/
theorem V_v1_cast (c : Dev nD) :
    (V m c main_v1 : S4096x4096.Idx → EReal)
      = shapeCast S4096x4096 (m ((c : Thread nD τ).loc main_arg0) : S2x2048x4096.Idx → EReal) shapeCasts_S2x2048x4096_S4096x4096 := by
  show StableHlo.after hostOps0 (fun b => m (c, b)) (Proc.devRef .tc main_v1) = _
  after_results
  rfl

/-- A `[2, 2048, 4096]` array reshaped to `[4096, 4096]` holds at `(r, k)` its element `(r / 2048, r % 2048, k)`: the
    two indices have the same row-major position `r·4096 + k`. -/
theorem reshape_flat (X : S2x2048x4096.Idx → EReal) (r k : Fin 4096) :
    shapeCast S4096x4096 X shapeCasts_S2x2048x4096_S4096x4096 (ix2 r k)
      = X (ix3 ⟨r.val / 2048, by have h := r.isLt; omega⟩ ⟨r.val % 2048, Nat.mod_lt _ (by norm_num)⟩ k) := by
  refine shapeCast_apply X shapeCasts_S2x2048x4096_S4096x4096 (ix2 r k) _ ?_
  rw [Shape.rowMajor_val_two, Shape.rowMajor_val_three]
  show (r.val / 2048 * 2048 + r.val % 2048) * 4096 + k.val = r.val * 4096 + k.val
  have h := r.isLt
  omega

/-- The first window's array at `(r, k)` is the activations as launched at `(r / 2048, r % 2048, k)`. -/
theorem V_v1 (c : Dev nD) (r k : Fin 4096) :
    V m c main_v1 (ix2 r k)
      = m ((c : Thread nD τ).loc main_arg0)
          (ix3 ⟨r.val / 2048, by have h := r.isLt; omega⟩ ⟨r.val % 2048, Nat.mod_lt _ (by norm_num)⟩ k) := by
  have e := congrFun (V_v1_cast m c) (ix2 r k)
  exact e.trans (reshape_flat _ r k)

/-- The same as a whole array: the first window's array is the flattened activations. -/
theorem V_v1_flat (c : Dev nD) :
    (V m c main_v1 : S4096x4096.Idx → EReal) = flat (m ((c : Thread nD τ).loc main_arg0)) := by
  funext j
  rw [eq_ix2 j]
  exact V_v1 m c (j 0) (j 1)

end Cert.KernelIdeal.HostSide

end
-- ==== Proof.FinalValue.lean ====
/-
  The output array after the run, and the program's result.

  The output block's staging buffer is written back to the output array only after the last column block of a row
  block.  By then entry `(p, q)` of the block of row block `R` holds the shares of the 43 blocks of hidden columns of
  row `512·R + p`, added in order; the shares of the blocks in order add up to the sum over all 11008 hidden columns,
  so what is written back is the result on flattened rows, block by block.  The written-back blocks cover the output
  array, so after the run the array IS that result (`final_rows`).

  The host then reshapes the `[4096, 4096]` array to `[2, 2048, 4096]`, element `(b, s, h)` from `(2048·b + s, h)`; the
  arrays the region read are the flattened activations and the weights as launched (a change of format is the identity
  on the extended reals).  Under the correspondence of rows `(b, s) ↔ 2048·b + s` the result on flattened rows is the
  result over `[2, 2048, 4096]` (`result_v6`).
-/
import proofs.«107914_j78786880078279_2_alg».proof.Proof.AccValue
import proofs.«107914_j78786880078279_2_alg».proof.Proof.BlockRead
import proofs.«107914_j78786880078279_2_alg».proof.Proof.BlockSum
import proofs.«107914_j78786880078279_2_alg».proof.Proof.HostSide

noncomputable section

namespace Cert.KernelIdeal.FinalValue

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The shares added in order up to a block do not depend on how the block's number is written. -/
theorem partialSum_congr (f : Fin 43 → EReal) {a b : ℕ} (ha : a < 43) (hb : b < 43) (h : a = b) :
    Cert.Swiglu.partialSum f a ha = Cert.Swiglu.partialSum f b hb := by
  subst h; rfl

/-- WHAT A WRITING POINT WRITES BACK.  A point `t` that writes the output block back is the last of its row block,
    `t % 43 = 42`: by then entry `(p, q)` of the block holds the shares of all 43 column blocks of row
    `512·(t / 43) + p`, added in order — the whole sum over the 11008 hidden columns, which is the result on flattened
    rows at that row and column `q`; and that is what block `t` of the result reads at `(p, q)`. -/
theorem flushed_rows (c : Dev nD) (t : Fin cfg0.N) (hf : (cfg0.win 4).flush t = true) :
    (Body.dats m 0 c).flushed 4 t
      = ((cfg0.win 4).blk t).view.read (Elt Ideal)
          (Cert.Swiglu.rows (V m c main_v1) (V m c main_v2) (V m c main_v3) (V m c main_v4)) := by
  funext y
  obtain ⟨p, q, rfl⟩ : ∃ (p : Fin 512) (q : Fin 4096), y = ix2 p q := ⟨y 0, y 1, eq_ix2 y⟩
  have h42 : t.val % 43 = 42 := (flush0_4 t).mp hf
  refine Eq.trans ?_ (BlockRead.blk4_read t _ p q).symm
  show (Body.dats m 0 c).after 4 t (ix2 p q) = _
  rw [Body.after_4]
  refine (AccValue.acc_apply m c t.val t.isLt p q).trans ?_
  rw [partialSum_congr _ _ (by norm_num : 42 < 43) h42, ← Cert.Swiglu.rows_eq_blocks]
  rfl

/-- THE OUTPUT ARRAY AFTER THE RUN is the result on flattened rows of the four arrays the region reads: every index
    lies in the block of a point that writes back, and each such point writes its block of that function. -/
theorem final_rows (c : Dev nD) :
    (Body.dats m 0 c).arrAt 4 cfg0.N
      = Cert.Swiglu.rows (V m c main_v1) (V m c main_v2) (V m c main_v3) (V m c main_v4) :=
  (Body.dats m 0 c).arrAt_eq_of_cover 4 _ (fun t hf => flushed_rows m c t hf) (BlockRead.cover4 c)

/-- THE PROGRAM'S RESULT.  After the region the output array `[4096, 4096]` is reshaped to `[2, 2048, 4096]`: element
    `(b, s, h)` is the array's element `(2048·b + s, h)`.  The array is the result on flattened rows of the flattened
    activations and the three weight arrays as launched, and under the correspondence of rows `(b, s) ↔ 2048·b + s`
    that is the result over `[2, 2048, 4096]`. -/
theorem result_v6 (c : Dev nD) :
    (Pipeline.afterTail₀ cfgs (Body.dats m) 0 (V0 m) [hostOps1] c main_v6 : S2x2048x4096.Idx → EReal)
      = Cert.Swiglu.result (m ((c : Thread nD τ).loc main_arg0)) (m ((c : Thread nD τ).loc main_arg1))
          (m ((c : Thread nD τ).loc main_arg2)) (m ((c : Thread nD τ).loc main_arg3)) := by
  funext i
  unfold Pipeline.afterTail₀
  show StableHlo.after hostOps1 (Pipeline.withArrays spec0 c (V0 m c) fun w => (Body.dats m 0 c).arrAt w cfg0.N)
      (Proc.devRef .tc main_v6) i = _
  refine (HostSide.tail_v6 _ i).trans ?_
  have hW := Pipeline.withArrays_arr spec0 launch0.win.arr_inj c (V0 m c) (fun w => (Body.dats m 0 c).arrAt w cfg0.N) 4
  refine (congrFun (hW.trans (final_rows m c)) _).trans ?_
  rw [HostSide.V_v1_flat, HostSide.V_v2, HostSide.V_v3, HostSide.V_v4]
  exact (HostSide.result_eq_rows _ _ _ _ i).symm

end Cert.KernelIdeal.FinalValue

end
-- ==== Proof.KernelRun.lean ====
/-
  The idealized kernel's run with its result named.

  The frame run ends with every unscoped buffer that is no window's array at what the host line after the region
  leaves there. The result buffer is one of them: that line reshapes the region's output array, which after the
  run holds, row by row, the sum over all hidden columns of the gated unit times the down projection (the 43
  column blocks' shares accumulated in order); and the region's input arrays are the arguments, the activations'
  rows flattened, every change of float format the identity on the extended reals. So the result is the
  specification's function of the four argument arrays; the arguments themselves end as launched.
-/
import proofs.«107914_j78786880078279_2_alg».proof.Proof.BodyIdeal
import proofs.«107914_j78786880078279_2_alg».proof.Proof.FinalValue

noncomputable section

namespace Cert.KernelIdeal.KernelRun

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Every weakly fair execution of the idealized kernel's @main terminates with the result buffer at the
    specification's function of the argument arrays, and the argument arrays unchanged. -/
theorem run :
    θ_run defs (onTc (τ := τ) (main (F := Ideal))) ⟨m, fun _ => 0, ρ⟩ (fun r => ∀ c : Dev nD,
      r.2.mem ((c.tc : Thread nD τ).loc main_v6)
          = Cert.Swiglu.result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans (Cert.KernelIdeal.FinalValue.result_v6 m c),
      ((h c).2 main_arg0 (Pipeline.mem_restRefs_of main_arg0 (by decide) (by decide))).trans (W_main_arg0 m (Cert.KernelIdeal.Body.dats m) c),
      ((h c).2 main_arg1 (Pipeline.mem_restRefs_of main_arg1 (by decide) (by decide))).trans (W_main_arg1 m (Cert.KernelIdeal.Body.dats m) c),
      ((h c).2 main_arg2 (Pipeline.mem_restRefs_of main_arg2 (by decide) (by decide))).trans (W_main_arg2 m (Cert.KernelIdeal.Body.dats m) c),
      ((h c).2 main_arg3 (Pipeline.mem_restRefs_of main_arg3 (by decide) (by decide))).trans (W_main_arg3 m (Cert.KernelIdeal.Body.dats m) c)⟩)
    (Cert.KernelIdeal.Body.run_main m ρ)

end Cert.KernelIdeal.KernelRun

end
-- ==== Proof.RefValue.lean ====
/-
  The reference program computes the gated feed-forward result of the specification.

  The reference is three contractions with an elementwise stage between them.  Its first two contractions are
  the gate and the up projection of a row `(b, s)` of the activations against row `j` of the two weight
  matrices; the elementwise stage forms `(g · (1 / (1 + exp (−g)))) · u`, and on the extended reals
  `1 / (1 + exp (−g))` is the logistic function by its definition, the literal `0x3F800000` being the number one;
  the last contraction sums the hidden columns against row `h` of the down projection.  Read index by index, that is
  `Cert.Swiglu.result`.
-/
import proofs.«107914_j78786880078279_2_alg».proof.Proof.Gen.ReferenceIdeal.Read
import proofs.«107914_j78786880078279_2_alg».proof.Proof.Spec

noncomputable section

namespace Cert.ReferenceIdeal.RefValue

open Idealize.ShloMosaic Idealize.ShloMosaic.ValueIdx Cert.ReferenceIdeal Cert.ReferenceIdeal.Read

/-- The single-precision pattern `0x3F800000` denotes the number one. -/
theorem one_bits : Ideal.ofBits .f32 0x3F800000#32 = 1 := by
  simp [Ideal.ofBits, Ideal.ieee, -EReal.coe_mul]; norm_num

/-- The first contraction, read at row `(i 0, i 1)` and hidden column `j`, is the projection of that row of the
    activations onto row `j` of the weights: both are the sum over `k` of `x[i 0, i 1, k] · w[j, k]`. -/
theorem gate_eq (x0 : (⟨S2x2048x4096, .f32⟩ : BufTy).Contents (Elt Ideal))
    (x1 : (⟨S11008x4096, .f32⟩ : BufTy).Contents (Elt Ideal)) (i : S2x2048x4096.Idx) (j : Fin 11008) :
    val_main_v0 (F := Ideal) x0 x1 (lidx_main_v4 i j)
      = Cert.Swiglu.proj x0 x1 ⟨(i 0).val, (i 0).isLt⟩ ⟨(i 1).val, (i 1).isLt⟩ j := by
  rw [val_main_v0_apply]
  unfold Cert.Swiglu.proj
  refine Finset.sum_congr rfl fun k _ => ?_
  have el : lidx_main_v0 (lidx_main_v4 i j) k = ix3 ⟨(i 0).val, (i 0).isLt⟩ ⟨(i 1).val, (i 1).isLt⟩ k :=
    funext fun a => by match a with | ⟨0, _⟩ => rfl | ⟨1, _⟩ => rfl | ⟨2, _⟩ => rfl
  have er : ridx_main_v0 (lidx_main_v4 i j) k = ix2 j k :=
    funext fun a => by match a with | ⟨0, _⟩ => rfl | ⟨1, _⟩ => rfl
  rw [el, er]
  rfl

/-- The second contraction is the same projection against the other weight matrix. -/
theorem up_eq (x0 : (⟨S2x2048x4096, .f32⟩ : BufTy).Contents (Elt Ideal))
    (x2 : (⟨S11008x4096, .f32⟩ : BufTy).Contents (Elt Ideal)) (i : S2x2048x4096.Idx) (j : Fin 11008) :
    val_main_v1 (F := Ideal) x0 x2 (lidx_main_v4 i j)
      = Cert.Swiglu.proj x0 x2 ⟨(i 0).val, (i 0).isLt⟩ ⟨(i 1).val, (i 1).isLt⟩ j := by
  rw [val_main_v1_apply]
  unfold Cert.Swiglu.proj
  refine Finset.sum_congr rfl fun k _ => ?_
  have el : lidx_main_v1 (lidx_main_v4 i j) k = ix3 ⟨(i 0).val, (i 0).isLt⟩ ⟨(i 1).val, (i 1).isLt⟩ k :=
    funext fun a => by match a with | ⟨0, _⟩ => rfl | ⟨1, _⟩ => rfl | ⟨2, _⟩ => rfl
  have er : ridx_main_v1 (lidx_main_v4 i j) k = ix2 j k :=
    funext fun a => by match a with | ⟨0, _⟩ => rfl | ⟨1, _⟩ => rfl
  rw [el, er]
  rfl

/-- The elementwise stage between the contractions is the gated hidden unit: with `g` the gate and `u` the up
    projection at `(i 0, i 1, j)`, the reference forms `(g · (1 / (1 + exp (−g)))) · u`, and `1 / (1 + exp (−g))`
    is `logistic g` by definition. -/
theorem hidden_eq (x0 : (⟨S2x2048x4096, .f32⟩ : BufTy).Contents (Elt Ideal))
    (x1 x2 : (⟨S11008x4096, .f32⟩ : BufTy).Contents (Elt Ideal)) (i : S2x2048x4096.Idx) (j : Fin 11008) :
    val_main_v3 (F := Ideal) x0 x1 x2 (lidx_main_v4 i j)
      = Cert.Swiglu.hid x0 x1 x2 ⟨(i 0).val, (i 0).isLt⟩ ⟨(i 1).val, (i 1).isLt⟩ j := by
  rw [val_main_v3_apply, val_main_v2_apply, val_main_call0_v5_apply, val_main_call0_v4_apply,
    val_main_call0_cst_0_apply, val_main_call0_v3_apply, val_main_call0_v2_apply, val_main_call0_cst_apply,
    val_main_call0_v1_apply, val_main_call0_v0_apply, gate_eq, up_eq]
  unfold Cert.Swiglu.hid Cert.Swiglu.gated
  simp only [Ideal.mulf_def, Ideal.hostDivf_def, Ideal.addf_def, Ideal.hostUnary_exp_def, Ideal.hostNegf_def,
    Ideal.negf_def, Ideal.ofBits_def, one_bits, Ideal.logistic]

/-- THE REFERENCE IS THE RESULT: at every index `(b, s, h)` the last contraction sums, over the hidden columns
    `j`, the gated hidden unit at `(b, s, j)` times the down projection's `(h, j)`. -/
theorem reference_is_result (x0 : (⟨S2x2048x4096, .f32⟩ : BufTy).Contents (Elt Ideal))
    (x1 x2 : (⟨S11008x4096, .f32⟩ : BufTy).Contents (Elt Ideal))
    (x3 : (⟨S4096x11008, .f32⟩ : BufTy).Contents (Elt Ideal)) :
    Cert.ReferenceIdeal.Read.val_main_v4 (F := Ideal) x0 x1 x2 x3 = Cert.Swiglu.result x0 x1 x2 x3 := by
  funext i
  rw [val_main_v4_apply]
  unfold Cert.Swiglu.result
  refine Finset.sum_congr rfl fun j _ => ?_
  have er : ridx_main_v4 i j = ix2 ⟨(i 2).val, (i 2).isLt⟩ j :=
    funext fun a => by match a with | ⟨0, _⟩ => rfl | ⟨1, _⟩ => rfl
  rw [hidden_eq, er]
  rfl

end Cert.ReferenceIdeal.RefValue

end
-- ==== Proof.lean ====
/-
  The proof of `Cert.Claim`: a gated MLP, `down(silu(x · Wgᵀ) ⊙ (x · Wuᵀ))`, computed by a kernel that walks the hidden
  axis in 43 blocks of 256 columns and accumulates the down projection block by block, against the same formula
  written as three whole contractions.

  The three frames: both printings of the kernel run their one region to the end — at each grid point the body is
  one of two runs, the first column block's (which overwrites the output block) or a later one's (which adds to
  it), and the pipeline's launch theorem does the rest —, and the reference is a straight line of host operations.
  The idealization rewrote nothing, so there is nothing to preserve. On the extended reals the two results are one
  function of the arguments: every change of float format is the identity, the kernel's `logistic` is by definition
  the reference's `1 / (1 + exp(−g))`, each contraction is a finite sum, and a finite sum over 11008 columns is the
  sum of its 43 blocks' shares added in order, addition on the extended reals being commutative and associative
  — no finiteness of the inputs is used.
-/
import proofs.«107914_j78786880078279_2_alg».proof.Defs
import proofs.«107914_j78786880078279_2_alg».proof.Proof.Gen.Kernel
import proofs.«107914_j78786880078279_2_alg».proof.Proof.Gen.KernelIdeal
import proofs.«107914_j78786880078279_2_alg».proof.Proof.Gen.ReferenceIdeal
import proofs.«107914_j78786880078279_2_alg».proof.Proof.Gen.Pre_finite_inputs
import proofs.«107914_j78786880078279_2_alg».proof.Proof.Gen.ReferenceIdeal.Read
import proofs.«107914_j78786880078279_2_alg».proof.Proof.BodyBits
import proofs.«107914_j78786880078279_2_alg».proof.Proof.KernelRun
import proofs.«107914_j78786880078279_2_alg».proof.Proof.RefValue
import Idealize.ShloMosaic.Adequacy
import Idealize.ShloMosaic.Init

noncomputable section

namespace Cert.Proof

open Idealize.ShloMosaic Idealize.SL.Sem

/-- The kernel as printed runs, faults nowhere and leaves its arguments unchanged. -/
theorem frame_kernel : Cert.frame_Kernel := fun m ρ _ => Cert.Kernel.Body.frame m ρ

/-- So does its idealization. -/
theorem frame_kernel_ideal : Cert.frame_KernelIdeal := fun m ρ _ => Cert.KernelIdeal.Body.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's function of arguments that agree. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_is_result,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
